-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512x512 : Shape := ⟨2, ![512, 512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S32x512x32x32 .f32) (main_arg1 : FVec F S512x512 .f32) (main_arg2 : FVec F S512x512 .f32) (main_arg3 : FVec F S512x512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S32x512x32x32 : Shape := ⟨4, ![32, 512, 32, 32]⟩
abbrev S512x512 : Shape := ⟨2, ![512, 512]⟩
abbrev S32x1024x512 : Shape := ⟨3, ![32, 1024, 512]⟩
abbrev S1536x512 : Shape := ⟨2, ![1536, 512]⟩
abbrev S1x1024x512 : Shape := ⟨3, ![1, 1024, 512]⟩
abbrev S1024x512 : Shape := ⟨2, ![1024, 512]⟩
abbrev S1024x1536 : Shape := ⟨2, ![1024, 1536]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x256x512 : Shape := ⟨3, ![1, 256, 512]⟩

abbrev nBuf : Space → Nat
  | .hbm => 9
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S32x1024x512, .f32⟩
  | .hbm, ⟨5, _⟩ => ⟨S1536x512, .f32⟩
  | .hbm, ⟨6, _⟩ => ⟨S1536x512, .bf16⟩
  | .hbm, ⟨7, _⟩ => ⟨S32x1024x512, .f32⟩
  | .hbm, ⟨8, _⟩ => ⟨S32x512x32x32, .f32⟩
  | .local _ .vmem, ⟨0, _⟩ => ⟨S1x1024x512, .f32⟩
  | .local _ .vmem, ⟨1, _⟩ => ⟨S1x1024x512, .f32⟩
  | .local _ .vmem, ⟨2, _⟩ => ⟨S1536x512, .bf16⟩
  | .local _ .vmem, ⟨3, _⟩ => ⟨S1x1024x512, .f32⟩
  | .local _ .vmem, ⟨4, _⟩ => ⟨S1x1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v24 : BitVec 32 := Scalar.muli arg7 c256_i32
  v24
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v24 : BitVec 32 := Scalar.muli arg7 c256_i32
  let v25 : BitVec 32 := v24
  let v26 : Index := Scalar.indexCast v25
  let c0_12 : Index := 0#32
  ![v26.toNat, 0]
def k0_off2 (k0_t1 : Fin k0_t1_loop.trips) : Fin 3 → Nat :=
  let c0_21 : Index := 0#32
  let c0_i32 : BitVec 32 := 0#32
  let c1_i32 : BitVec 32 := 1#32
  let arg7 : BitVec 32 := Scf.iv c0_i32 c1_i32 k0_t1
  let c256_i32 : BitVec 32 := 256#32
  let v24 : BitVec 32 := Scalar.muli arg7 c256_i32
  let v25 : BitVec 32 := v24
  let v42 : Index := Scalar.indexCast v25
  let c0_22 : Index := 0#32
  ![0, v42.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x32x32_S32x1024x512 : S32x512x32x32.ShapeCasts S32x1024x512
  concatenates_S512x512_S512x512_S512x512_S1536x512_d0 : Shape.Concatenates [S512x512, S512x512, S512x512] S1536x512 0
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  slices_S1024x1536_o0_0_S1024x512 : S1024x1536.Slices ![0, 0] S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  slices_S1024x1536_o0_512_S1024x512 : S1024x1536.Slices ![0, 512] S1024x512
  slices_S1024x1536_o0_1024_S1024x512 : S1024x1536.Slices ![0, 1024] S1024x512
  h_S256x512 : 0 < S256x512.numel
  reduces_S256x1024_S256 : S256x1024.Reduces [1] S256
  shapeCasts_S256_S256x1 : S256.ShapeCasts S256x1
  broadcasts_S256x1_S256x1024 : S256x1.Broadcasts S256x1024
  h_S1x256x512 : 0 < S1x256x512.numel
  shapeCasts_S1x256x512_S256x512 : S1x256x512.ShapeCasts S256x512
  shapeCasts_S256x512_S1x256x512 : S256x512.ShapeCasts S1x256x512
  shapeCasts_S32x1024x512_S32x512x32x32 : S32x1024x512.ShapeCasts S32x512x32x32
  dot_S1024x512_S1536x512_S1024x1536_1_1_0_0_n_n_wf : DotDims.WF S1024x512 S1536x512 S1024x1536 [1] [1] [0] [0] [] []
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x512.size a ≤ S1024x512.size a
  k0_off2_inb : ∀ k0_t1 : Fin k0_t1_loop.trips, ∀ a, (k0_off2 k0_t1) a + S1x256x512.size a ≤ S1x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .f32 = 32 ∨ (Rect.block (s := S32x1024x512) S1x1024x512.size (cc0_transform_2 i) (hinb0_2 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S512x512 : Shape := ⟨2, ![512, 512]⟩
abbrev S32x1024x512 : Shape := ⟨3, ![32, 1024, 512]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S32x1024x512, .f32⟩
  | .hbm, ⟨5, _⟩ => ⟨S32x1024x512, .f32⟩
  | .hbm, ⟨6, _⟩ => ⟨S32x1024x512, .f32⟩
  | .hbm, ⟨7, _⟩ => ⟨S32x1024x512, .f32⟩
  | .hbm, ⟨8, _⟩ => ⟨S32x1024x1024, .f32⟩
  | .hbm, ⟨9, _⟩ => ⟨S_, .f32⟩
  | .hbm, ⟨10, _⟩ => ⟨S32x1024x1024, .f32⟩
  | .hbm, ⟨11, _⟩ => ⟨S32x1024x1024, .f32⟩
  | .hbm, ⟨12, _⟩ => ⟨S_, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S_, .f32⟩
  | .hbm, ⟨22, _⟩ => ⟨S32x1024, .f32⟩
  | .hbm, ⟨23, _⟩ => ⟨S32x1024x1, .f32⟩
  | .hbm, ⟨24, _⟩ => ⟨S32x1024x1024, .f32⟩
  | .hbm, ⟨25, _⟩ => ⟨S32x1024x1024, .f32⟩
  | .hbm, ⟨26, _⟩ => ⟨S32x1024x512, .f32⟩
  | .hbm, ⟨27, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S32x512x32x32_S32x1024x512 : S32x512x32x32.ShapeCasts S32x1024x512
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  shapeCasts_S32x1024x512_S32x512x32x32 : S32x1024x512.ShapeCasts S32x512x32x32
  dot_S32x1024x512_S512x512_S32x1024x512_2_1_01_0_n_n_wf : DotDims.WF S32x1024x512 S512x512 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.KernelRegion.lean ====
/- @main around its one region, at any float instance. Three host lines come before the region: the
   activations are reshaped to (sequence, row, channel), the three projection matrices are stacked along
   their rows, and the stack changes format; one host line comes after it: the result is reshaped back.
   None of the four writes an argument array, so each argument array is found by the region, and left at
   the end, as launched. Stated here: the buffers' contents when the region is entered, @main as the
   region between those lines, what the line after the region may touch, each operand's block at a grid
   point, that an operand's staging buffer holds that block whenever the body runs, the scratch buffers
   as the body is handed them, and how the frame statement follows from a run of the whole program. -/
import proofs.«138082_j77309411328085_2_alg».proof.Proof.Gen.Kernel.Launch
import proofs.«138082_j77309411328085_2_alg».proof.Proof.Gen.Kernel.Skeleton
import proofs.«138082_j77309411328085_2_alg».proof.Proof.Gen.Kernel.Loops
import proofs.«138082_j77309411328085_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of core `c`'s buffers after the three host lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only the region's arrays and buffers the region does not stage, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the region's arrays: it writes the reshaped result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds their block whenever the body runs: the block is fetched at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The stacked matrices' staging buffer holds the whole stack whenever the body runs: fetched at the first point,
    and the block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the whole program -/

/-- A run of @main that ends with every buffer the region does not stage as the line after the region leaves it
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The memrefs the body is called with -/

/-- One staging buffer of the result, through which the result block's contents are stated. -/
abbrev VO : View sig .tc .vmem S1x1024x512 .f32 := (Memref.whole cc0_stg2_0 : Memref sig .tc .vmem S1x1024x512 .f32).view
/-- Each operand's current staging memref at point `t`, as the region passes it, and that it is a whole buffer. -/
abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1536x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x512 .f32 := win0_2.stage (cfg0.slots t 2)
abbrev hs2 (t : Fin cfg0.N) : (ms2 t).IsWhole := hstage0_2 ((cfg0.slots t 2).cast nbuf0_2)
/-- The three scratch buffers (scaled queries, keys, values), whole. -/
abbrev scQ : Memref sig .tc .vmem S1024x512 .bf16 := Memref.whole cc0_scratch0
abbrev scK : Memref sig .tc .vmem S1024x512 .bf16 := Memref.whole cc0_scratch1
abbrev scV : Memref sig .tc .vmem S1024x512 .bf16 := Memref.whole cc0_scratch2

/-- What the region keeps aside for the body between points: the three scratch buffers at some contents, and the
    generator register. -/
theorem aside_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d)) ∗ (∃ r, prngReg c r)) := by
  unfold Pipeline.ΦA; rw [scopedRest0_eq]; simp only [scQ, scK, scV, owns_whole]; try rfl

end Cert.Kernel.Region

end
-- ==== Proof.KernelRun.lean ====
/- The kernel body run once, on whole memrefs, at any float instance: from the activations' block and the stacked
   matrices at their contents, the result's buffer and the three scratch buffers at anything, the body runs to its
   end without a fault; it leaves the two operands as they were, the scratch buffers at some contents, and the
   result's buffer with a list of pieces written over what it held — the four row blocks the counted loop stores,
   last first. The list is what the run itself finds; nothing the body computes is restated here. -/
import proofs.«138082_j77309411328085_2_alg».proof.Proof.KernelRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's buffer, with the proof that it runs. -/
noncomputable def bodyRun (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) :
    { LO : List (View.Piece (Elt F) S1x1024x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LO)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__attn_kernel i arg1 harg1 arg2 harg2 arg3 harg3 arg4 harg4 arg5 harg5 arg6 harg6) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

end Cert.Kernel.Region

end
-- ==== Proof.KernelFrame.lean ====
/- The frame of the program at any float instance. The four row blocks the body's loop stores tile the result's
   block, so what the body leaves in the result's staging buffer is a function of the two operand blocks alone
   (`outBlk`), whatever the buffer held. With that, the data the launch theorem asks for is: each operand's array
   as the region finds it; after the body at a grid point, each operand's buffer at its block and the result's
   at `outBlk` of the point's blocks; between points the scratch buffers at anything. The body obligation is the
   body's run at the point's memrefs; the launch theorem gives the run of @main, and the run gives the frame. -/
import proofs.«138082_j77309411328085_2_alg».proof.Proof.KernelRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's four stores, each of 256 rows, tile the result's block of 1024 rows: every index is in one. -/
theorem cover (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) (y : S1x1024x512.Idx) :
    ∃ pc ∈ (bodyRun c i arg1 harg1 arg2 harg2 arg3 harg3 arg4 harg4 arg5 harg5 arg6 harg6 x0 x1).1, y ∈ pc.1.set :=
  View.cover_of_tiledL (bodyRun c i arg1 harg1 arg2 harg2 arg3 harg3 arg4 harg4 arg5 harg5 arg6 harg6 x0 x1).1 S1x256x512.size (by sl_kernel_rfl) y

/-- What the body leaves in the result's staging buffer: its pieces read back over anything. -/
def outBlk (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) : Vec F S1x1024x512 .f32 :=
  VO.read (Elt F) (VO.writes (Elt F) VO.junk (bodyRun c i arg1 harg1 arg2 harg2 arg3 harg3 arg4 harg4 arg5 harg5 arg6 harg6 x0 x1).1)

/-- The result's staging buffer after the body at grid point `t`. -/
def outAt (c : Dev nD) (t : Fin cfg0.N) : Vec F S1x1024x512 .f32 :=
  outBlk c (grid0.coords t) (ms0 t) (hs0 t) (ms1 t) (hs1 t) (ms2 t) (hs2 t) scQ (Memref.isWhole_whole _) scK (Memref.isWhole_whole _) scV (Memref.isWhole_whole _)
    (iblk m c 0 t) (iblk m c 1 t)

/-! ## The data of the launch -/

/-- On core `c`: the arrays as the region finds them; after the body at point `t` each operand's buffer at its
    block and the result's at `outAt`; between points the scratch buffers and the generator register at anything;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, the three staged arrays one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the body's run applies; what is kept aside
    is opened into the scratch buffers and closed again; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, aside_eq]
  unfold outAt outBlk
  iintro ⟨⟨⟨HQ, HK, HV⟩, Hg⟩, Ho, ⟨%d0, H0⟩, ⟨%d1, H1⟩, ⟨%d2, H2⟩⟩
  iapply ((bodyRun c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HQ]; · iexact HQ
  isplitl [HK]; · iexact HK
  isplitl [HV]; · iexact HV
  iintro ⟨H0, H1, ⟨%e2, H2⟩, HQ, HK, HV⟩
  isplitl [HQ HK HV Hg]
  · isplitl [HQ HK HV]
    · isplitl [HQ]; · iexact HQ
      isplitl [HK]; · iexact HK
      iexact HV
    iexact Hg
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run of @main, and the frame -/

set_option backward.isDefEq.respectTransparency.types false in
/-- From any memory with zero counters every weakly fair execution of @main terminates without a fault, every
    staged array ending at what the launch theorem computes from the data above and every other buffer as the
    host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Region

end
-- ==== Proof.KernelIdealRegion.lean ====
/- @main around its one region, at any float instance. Three host lines come before the region: the
   activations are reshaped to (sequence, row, channel), the three projection matrices are stacked along
   their rows, and the stack changes format; one host line comes after it: the result is reshaped back.
   None of the four writes an argument array, so each argument array is found by the region, and left at
   the end, as launched. Stated here: the buffers' contents when the region is entered, @main as the
   region between those lines, what the line after the region may touch, each operand's block at a grid
   point, that an operand's staging buffer holds that block whenever the body runs, the scratch buffers
   as the body is handed them, and how the frame statement follows from a run of the whole program. -/
import proofs.«138082_j77309411328085_2_alg».proof.Proof.Gen.KernelIdeal.Launch
import proofs.«138082_j77309411328085_2_alg».proof.Proof.Gen.KernelIdeal.Skeleton
import proofs.«138082_j77309411328085_2_alg».proof.Proof.Gen.KernelIdeal.Loops
import proofs.«138082_j77309411328085_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of core `c`'s buffers after the three host lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only the region's arrays and buffers the region does not stage, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the region's arrays: it writes the reshaped result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds their block whenever the body runs: the block is fetched at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The stacked matrices' staging buffer holds the whole stack whenever the body runs: fetched at the first point,
    and the block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the whole program -/

/-- A run of @main that ends with every buffer the region does not stage as the line after the region leaves it
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The memrefs the body is called with -/

/-- One staging buffer of the result, through which the result block's contents are stated. -/
abbrev VO : View sig .tc .vmem S1x1024x512 .f32 := (Memref.whole cc0_stg2_0 : Memref sig .tc .vmem S1x1024x512 .f32).view
/-- Each operand's current staging memref at point `t`, as the region passes it, and that it is a whole buffer. -/
abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1536x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x512 .f32 := win0_2.stage (cfg0.slots t 2)
abbrev hs2 (t : Fin cfg0.N) : (ms2 t).IsWhole := hstage0_2 ((cfg0.slots t 2).cast nbuf0_2)
/-- The three scratch buffers (scaled queries, keys, values), whole. -/
abbrev scQ : Memref sig .tc .vmem S1024x512 .bf16 := Memref.whole cc0_scratch0
abbrev scK : Memref sig .tc .vmem S1024x512 .bf16 := Memref.whole cc0_scratch1
abbrev scV : Memref sig .tc .vmem S1024x512 .bf16 := Memref.whole cc0_scratch2

/-- What the region keeps aside for the body between points: the three scratch buffers at some contents, and the
    generator register. -/
theorem aside_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d)) ∗ (∃ r, prngReg c r)) := by
  unfold Pipeline.ΦA; rw [scopedRest0_eq]; simp only [scQ, scK, scV, owns_whole]; try rfl

end Cert.KernelIdeal.Region

end
-- ==== Proof.KernelIdealRun.lean ====
/- The kernel body run once, on whole memrefs, at any float instance: from the activations' block and the stacked
   matrices at their contents, the result's buffer and the three scratch buffers at anything, the body runs to its
   end without a fault; it leaves the two operands as they were, the scratch buffers at some contents, and the
   result's buffer with a list of pieces written over what it held — the four row blocks the counted loop stores,
   last first. The list is what the run itself finds; nothing the body computes is restated here. -/
import proofs.«138082_j77309411328085_2_alg».proof.Proof.KernelIdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's buffer, with the proof that it runs. -/
noncomputable def bodyRun (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) :
    { LO : List (View.Piece (Elt F) S1x1024x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LO)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__attn_kernel i arg1 harg1 arg2 harg2 arg3 harg3 arg4 harg4 arg5 harg5 arg6 harg6) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    isplitl [H4]
    · iexists _; iexists _; isplitr
      swap; · iexact H4
      ipureintro; rfl
    isplitl [H5]
    · iexists _; iexists _; isplitr
      swap; · iexact H5
      ipureintro; rfl
    iexists _; iexists _; isplitr
    swap; · iexact H6
    ipureintro; rfl

end Cert.KernelIdeal.Region

end
-- ==== Proof.KernelIdealFrame.lean ====
/- The frame of the program at any float instance. The four row blocks the body's loop stores tile the result's
   block, so what the body leaves in the result's staging buffer is a function of the two operand blocks alone
   (`outBlk`), whatever the buffer held. With that, the data the launch theorem asks for is: each operand's array
   as the region finds it; after the body at a grid point, each operand's buffer at its block and the result's
   at `outBlk` of the point's blocks; between points the scratch buffers at anything. The body obligation is the
   body's run at the point's memrefs; the launch theorem gives the run of @main, and the run gives the frame. -/
import proofs.«138082_j77309411328085_2_alg».proof.Proof.KernelIdealRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's four stores, each of 256 rows, tile the result's block of 1024 rows: every index is in one. -/
theorem cover (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) (y : S1x1024x512.Idx) :
    ∃ pc ∈ (bodyRun c i arg1 harg1 arg2 harg2 arg3 harg3 arg4 harg4 arg5 harg5 arg6 harg6 x0 x1).1, y ∈ pc.1.set :=
  View.cover_of_tiledL (bodyRun c i arg1 harg1 arg2 harg2 arg3 harg3 arg4 harg4 arg5 harg5 arg6 harg6 x0 x1).1 S1x256x512.size (by sl_kernel_rfl) y

/-- What the body leaves in the result's staging buffer: its pieces read back over anything. -/
def outBlk (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1x1024x512 .f32) (x1 : Vec F S1536x512 .bf16) : Vec F S1x1024x512 .f32 :=
  VO.read (Elt F) (VO.writes (Elt F) VO.junk (bodyRun c i arg1 harg1 arg2 harg2 arg3 harg3 arg4 harg4 arg5 harg5 arg6 harg6 x0 x1).1)

/-- The result's staging buffer after the body at grid point `t`. -/
def outAt (c : Dev nD) (t : Fin cfg0.N) : Vec F S1x1024x512 .f32 :=
  outBlk c (grid0.coords t) (ms0 t) (hs0 t) (ms1 t) (hs1 t) (ms2 t) (hs2 t) scQ (Memref.isWhole_whole _) scK (Memref.isWhole_whole _) scV (Memref.isWhole_whole _)
    (iblk m c 0 t) (iblk m c 1 t)

/-! ## The data of the launch -/

/-- On core `c`: the arrays as the region finds them; after the body at point `t` each operand's buffer at its
    block and the result's at `outAt`; between points the scratch buffers and the generator register at anything;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, the three staged arrays one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the body's run applies; what is kept aside
    is opened into the scratch buffers and closed again; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, aside_eq]
  unfold outAt outBlk
  iintro ⟨⟨⟨HQ, HK, HV⟩, Hg⟩, Ho, ⟨%d0, H0⟩, ⟨%d1, H1⟩, ⟨%d2, H2⟩⟩
  iapply ((bodyRun c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HQ]; · iexact HQ
  isplitl [HK]; · iexact HK
  isplitl [HV]; · iexact HV
  iintro ⟨H0, H1, ⟨%e2, H2⟩, HQ, HK, HV⟩
  isplitl [HQ HK HV Hg]
  · isplitl [HQ HK HV]
    · isplitl [HQ]; · iexact HQ
      isplitl [HK]; · iexact HK
      iexact HV
    iexact Hg
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run of @main, and the frame -/

set_option backward.isDefEq.respectTransparency.types false in
/-- From any memory with zero counters every weakly fair execution of @main terminates without a fault, every
    staged array ending at what the launch theorem computes from the data above and every other buffer as the
    host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Region

end
-- ==== Proof.KernelIdealArray.lean ====
/- From the result's blocks to the result array. The region runs over 32 grid points; at point `t` the result
   window holds rows [t, t+1) x all 1024 x all 512 of the 32 x 1024 x 512 result array, and it is written back at
   every point. So if what the body leaves at each point is the matching slab of one function of the array's
   index, the array ends holding that function: the 32 slabs cover the array. -/
import proofs.«138082_j77309411328085_2_alg».proof.Proof.KernelIdealRegion
import Idealize.ShloMosaic.Lib.Pipeline.Value
import Idealize.ShloMosaic.Lib.ValueIdx

set_option maxRecDepth 16384

noncomputable section

namespace Cert.KernelIdeal.Array

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The result window's index map, decided over the grid: at point `t` the block index is (t, 0, 0). -/
theorem slab_index : ∀ t : Fin cfg0.N, win0_2.index t (0 : Fin 3) = t.val
    ∧ win0_2.index t (1 : Fin 3) = 0
    ∧ win0_2.index t (2 : Fin 3) = 0 :=
  (by decide +kernel : ∀ t : Fin grid0.N, _)

/-- A grid point is a sequence number. -/
theorem point_lt (t : Fin cfg0.N) : t.val < 32 := by
  have := t.isLt; have h : cfg0.N = 32 := N_0; omega

/-- WHAT POINT `t` WRITES BACK is slab `t` of `G`, when the body leaves slab `t` of `G` there. -/
theorem flushed_slab {c : Dev nD} (dat : Dat τ (Elt F) Unit ℕ (UR sig nD τ) ℕ cfg0 c) (G : S32x1024x512.Idx → Elt F .f32)
    (hblk : ∀ (t : Fin cfg0.N) (y : S1x1024x512.Idx),
      dat.after 2 t y = G (ix3 (⟨t.val, point_lt t⟩ : Fin 32) (y 1) (y 2)))
    (t : Fin cfg0.N) :
    dat.flushed 2 t = ((cfg0.win 2).blk t).view.read (Elt F) G := by
  show (cfg0.win 2).cut (grid0.coords t) (dat.after 2 t) = _
  obtain ⟨e0, e1, e2⟩ := slab_index t
  funext y
  show dat.after 2 t y = G (((cfg0.win 2).blk t).view.emb y)
  rw [hblk]
  refine congrArg G (funext fun a => Fin.ext ?_)
  match a with
  | ⟨0, _⟩ => show t.val = win0_2.index t (0 : Fin 3) * 1 + 1 * (y 0).val; have hy : (y 0).val < 1 := (y 0).isLt; omega
  | ⟨1, _⟩ => show (y 1).val = win0_2.index t (1 : Fin 3) * 1024 + 1 * (y 1).val; omega
  | ⟨2, _⟩ => show (y 2).val = win0_2.index t (2 : Fin 3) * 512 + 1 * (y 2).val; omega

/-- An index of the array is in point `t`'s slab iff each coordinate is in the slab's range on its axis. -/
theorem mem_slab (t : Fin cfg0.N) (i : S32x1024x512.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v3).slice (win0_2.rect t)).set ↔ _
  rw [View.set_slice_whole, Rect.mem_set_unit]
  exact Iff.rfl

/-- The slabs cover the array: index (b, s, d) is in the slab of point `b`, which is written back. -/
theorem slabs_cover (i : S32x1024x512.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 512 := (i 2).isLt
  have hN : cfg0.N = 32 := N_0
  refine ⟨⟨(i 0).val, by omega⟩, flush0_2 _, ?_⟩
  rw [mem_slab]
  obtain ⟨e0, e1, e2⟩ := slab_index ⟨(i 0).val, by omega⟩
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0]; show (i 0).val * 1 ≤ (i 0).val ∧ (i 0).val < (i 0).val * 1 + 1; omega
  | ⟨1, _⟩ =>
    show win0_2.index ⟨(i 0).val, _⟩ (1 : Fin 3) * 1024 ≤ (i 1).val ∧ (i 1).val < win0_2.index ⟨(i 0).val, _⟩ (1 : Fin 3) * 1024 + 1024
    rw [e1]; omega
  | ⟨2, _⟩ =>
    show win0_2.index ⟨(i 0).val, _⟩ (2 : Fin 3) * 512 ≤ (i 2).val ∧ (i 2).val < win0_2.index ⟨(i 0).val, _⟩ (2 : Fin 3) * 512 + 512
    rw [e2]; omega

/-- THE ARRAY after the region: if the body leaves, at every point `t`, slab `t` of `G` in the result window, the
    result array ends holding `G`. -/
theorem array_of_blocks {c : Dev nD} (dat : Dat τ (Elt F) Unit ℕ (UR sig nD τ) ℕ cfg0 c) (G : S32x1024x512.Idx → Elt F .f32)
    (hblk : ∀ (t : Fin cfg0.N) (y : S1x1024x512.Idx),
      dat.after 2 t y = G (ix3 (⟨t.val, point_lt t⟩ : Fin 32) (y 1) (y 2))) :
    dat.arrAt 2 cfg0.N = G :=
  dat.arrAt_eq_of_cover 2 G (fun t _ => flushed_slab dat G hblk t) slabs_cover

/-- The same from the slab given by coordinates: row `s`, channel `d` of the one sequence the window holds. -/
theorem array_of_rows {c : Dev nD} (dat : Dat τ (Elt F) Unit ℕ (UR sig nD τ) ℕ cfg0 c) (G : S32x1024x512.Idx → Elt F .f32)
    (hrow : ∀ (t : Fin cfg0.N) (s : Fin 1024) (d : Fin 512),
      dat.after 2 t (ix3 (0 : Fin 1) s d) = G (ix3 (⟨t.val, point_lt t⟩ : Fin 32) s d)) :
    dat.arrAt 2 cfg0.N = G :=
  array_of_blocks dat G fun t y => by
    have hy : y = ix3 (0 : Fin 1) (y 1) (y 2) := by
      funext a
      match a with
      | ⟨0, _⟩ => exact Fin.ext (by have h : (y 0).val < 1 := (y 0).isLt; show (y 0).val = 0; omega)
      | ⟨1, _⟩ => rfl
      | ⟨2, _⟩ => rfl
    exact (congrArg (dat.after 2 t) hy).trans (hrow t (y 1) (y 2))

end Cert.KernelIdeal.Array

end
-- ==== Proof.KernelIdealHostValue.lean ====
/- The host lines of @main around its one region, read as values. Before the region the activations are
   reshaped to (sequence, row, channel) and the three projection matrices are stacked along their rows and
   change format; after it the result array is reshaped back. Stated here: what the reshaped activations
   and the stacked matrices hold when the region is entered, as functions of the argument arrays, and what
   the reshaped result holds at the end, as a function of the result array the region leaves. -/
import proofs.«138082_j77309411328085_2_alg».proof.Proof.KernelIdealRegion
import Idealize.ShloMosaic.Lib.StableHlo.Run

set_option maxRecDepth 16384

noncomputable section

namespace Cert.KernelIdeal.HostValue

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Before the region -/

/-- When the region is entered the reshaped activations hold the activations argument, re-indexed. -/
theorem V_acts (c : Dev nD) :
    (V m c main_v0 : S32x1024x512.Idx → Elt F .f32)
      = shapeCast S32x1024x512 (m ((c : Thread nD τ).loc main_arg0)) shapeCasts_S32x512x32x32_S32x1024x512 := by
  show StableHlo.after hostOps0 (fun b => m (c, b)) (Proc.devRef .tc main_v0) = _
  after_results
  rfl

/-- The reshape of the activations leaves every other buffer as it was. -/
theorem reshape_keeps (c : Dev nD) (r : Ref sig .tc) (h : r ≠ main_v0) :
    (StableHlo.reshape main_arg0 main_v0 rfl shapeCasts_S32x512x32x32_S32x1024x512 : HloOp τ sig (Elt F)).result
        (fun b => m (c, b)) (Proc.devRef .tc r) = m (c, Proc.devRef .tc r) :=
  StableHlo.reshape_result_ne _ _ _ _ _ _ _ h

/-- When the region is entered the stacked matrices hold the three matrix arguments, stacked along their rows,
    in the narrower format. -/
theorem V_stack (c : Dev nD) :
    (V m c main_v2 : S1536x512.Idx → Elt F .bf16)
      = truncf .bf16 (concatenate S1536x512 0 [⟨S512x512, m ((c : Thread nD τ).loc main_arg1)⟩, ⟨S512x512, m ((c : Thread nD τ).loc main_arg2)⟩, ⟨S512x512, m ((c : Thread nD τ).loc main_arg3)⟩] concatenates_S512x512_S512x512_S512x512_S1536x512_d0) bitsLt_bf16_f32 := by
  show StableHlo.after hostOps0 (fun b => m (c, b)) (Proc.devRef .tc main_v2) = _
  after_results
  show truncf .bf16 (concatenate S1536x512 0
      [⟨S512x512, (StableHlo.reshape main_arg0 main_v0 rfl shapeCasts_S32x512x32x32_S32x1024x512 : HloOp τ sig (Elt F)).result (fun b => m (c, b)) (Proc.devRef .tc main_arg1)⟩,
       ⟨S512x512, (StableHlo.reshape main_arg0 main_v0 rfl shapeCasts_S32x512x32x32_S32x1024x512 : HloOp τ sig (Elt F)).result (fun b => m (c, b)) (Proc.devRef .tc main_arg2)⟩,
       ⟨S512x512, (StableHlo.reshape main_arg0 main_v0 rfl shapeCasts_S32x512x32x32_S32x1024x512 : HloOp τ sig (Elt F)).result (fun b => m (c, b)) (Proc.devRef .tc main_arg3)⟩]
      concatenates_S512x512_S512x512_S512x512_S1536x512_d0) bitsLt_bf16_f32 = _
  rw [reshape_keeps m c main_arg1 (by decide), reshape_keeps m c main_arg2 (by decide), reshape_keeps m c main_arg3 (by decide)]

/-! ## After the region -/

/-- At the end the reshaped result holds the result array as the region leaves it, re-indexed. -/
theorem tail_result (dats : (p : Fin 1) → (c : Dev nD) → Pipeline.Dat τ (Elt F) Unit ℕ (UR sig nD τ) ℕ (cfgs p) c) (c : Dev nD) :
    (Pipeline.afterTail₀ cfgs dats 0 (V0 m) [hostOps1] c main_v4 : S32x512x32x32.Idx → Elt F .f32)
      = shapeCast S32x512x32x32 ((dats 0 c).arrAt 2 cfg0.N) shapeCasts_S32x1024x512_S32x512x32x32 := by
  unfold Pipeline.afterTail₀
  show StableHlo.after hostOps1 _ (Proc.devRef .tc main_v4) = _
  after_results
  have e : Pipeline.withArrays (cfgs 0).spec c (V0 m c) (fun w => (dats 0 c).arrAt w (cfgs 0).N) (Proc.devRef .tc main_v3)
      = (dats 0 c).arrAt 2 cfg0.N := Pipeline.withArrays_arr spec0 launch0.win.arr_inj c _ _ 2
  rw [e]
  rfl

end Cert.KernelIdeal.HostValue

end
-- ==== Proof.KernelIdealBlocks.lean ====
/- The operands' blocks, read at an index. The region hands the body, at grid point t, sequence t of the
   reshaped activations (a 1 x 1024 x 512 block of the 32 x 1024 x 512 array, at block index (t, 0, 0)) and
   the whole stacked matrix (block index (0, 0) at every point). A block's element sits, on each axis, at
   block index times block size plus its coordinate inside the block. -/
import proofs.«138082_j77309411328085_2_alg».proof.Proof.KernelIdealRegion
import Idealize.ShloMosaic.Lib.ValueIdx

set_option maxRecDepth 16384

noncomputable section

namespace Cert.KernelIdeal.Blocks

open Cert.KernelIdeal Cert.KernelIdeal.Gen Cert.KernelIdeal.Region
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The activations' block index at point t is (t, 0, 0). -/
theorem acts_index : ∀ t : Fin cfg0.N,
    win0_0.index t (0 : Fin 3) = t.val ∧ win0_0.index t (1 : Fin 3) = 0 ∧ win0_0.index t (2 : Fin 3) = 0 :=
  (by decide +kernel : ∀ t : Fin grid0.N, _)

/-- The stacked matrix's block index is (0, 0) at every point. -/
theorem stack_index : ∀ t : Fin cfg0.N, win0_1.index t (0 : Fin 2) = 0 ∧ win0_1.index t (1 : Fin 2) = 0 :=
  (by decide +kernel : ∀ t : Fin grid0.N, _)

/-- The activations' block at point t is sequence t of the reshaped activations. -/
theorem acts_block (c : Dev nD) (t : Fin cfg0.N) (s : Fin 1024) (k : Fin 512) :
    (iblk m c 0 t : S1x1024x512.Idx → Elt F .f32) (ix3 0 s k)
      = (V m c main_v0 : S32x1024x512.Idx → Elt F .f32)
          (ix3 ⟨t.val, by have := t.isLt; have h : cfg0.N = 32 := N_0; omega⟩ s k) := by
  have hi := acts_index t
  unfold iblk
  rw [View.read_apply]
  show V m c main_v0 _ = V m c main_v0 _
  congr 1
  funext a
  apply Fin.ext
  match a with
  | ⟨0, _⟩ => show win0_0.index t 0 * 1 + 1 * 0 = t.val; rw [hi.1]; omega
  | ⟨1, _⟩ => show win0_0.index t 1 * 1024 + 1 * s.val = s.val; rw [hi.2.1]; omega
  | ⟨2, _⟩ => show win0_0.index t 2 * 512 + 1 * k.val = k.val; rw [hi.2.2]; omega

/-- The stacked matrix's block is the whole stacked matrix, at every point. -/
theorem stack_block (c : Dev nD) (t : Fin cfg0.N) :
    (iblk m c 1 t : S1536x512.Idx → Elt F .bf16) = (V m c main_v2 : S1536x512.Idx → Elt F .bf16) := by
  have hi := stack_index t
  funext y
  unfold iblk
  rw [View.read_apply]
  show V m c main_v2 _ = V m c main_v2 y
  congr 1
  funext a
  apply Fin.ext
  match a with
  | ⟨0, _⟩ => show win0_1.index t 0 * 1536 + 1 * (y 0).val = (y 0).val; rw [hi.1]; omega
  | ⟨1, _⟩ => show win0_1.index t 1 * 512 + 1 * (y 1).val = (y 1).val; rw [hi.2]; omega

end Cert.KernelIdeal.Blocks

end
-- ==== Proof.Spec.lean ====
/- The function both programs compute, index by index on the extended reals: single-head attention over
   32 sequences of 1024 rows of width 512. A row `s` of sequence `b` is projected by three 512 x 512
   matrices (`y[e] = sum over c of x[c] * W[e, c]`); its score against row `t` is the inner product of
   the two projections times a fixed scale; the scores of a row are turned into weights by the softmax
   taken against the row's maximum; the result is the weighted sum of the projected value rows.
   The scale and the start value of the maximum stay the bit patterns the programs spell: both programs
   spell the same ones, so neither is ever evaluated here. -/
import Idealize.ShloMosaic.PureOps.Ideal
import Idealize.ShloMosaic.Lib.ValueIdx

noncomputable section

namespace Cert.Attention

open Idealize.ShloMosaic Idealize.ShloMosaic.ValueIdx

/-- Activations: sequence, row, channel. -/
abbrev Acts : Shape := ⟨3, ![32, 1024, 512]⟩
/-- One projection matrix: output channel, input channel. -/
abbrev Wts : Shape := ⟨2, ![512, 512]⟩

/-- The score scale, as spelt (the single-precision pattern nearest 1 / sqrt 512). -/
def scale : EReal := Ideal.ofBits .f32 0x3D3504F3#32
/-- The value a row maximum starts from, as spelt (the pattern of minus infinity). -/
def floor : EReal := Ideal.ofBits .f32 0xFF800000#32

/-- Row `s` of sequence `b` projected by `W`, at output channel `e`. -/
def proj (xs : Acts.Idx → EReal) (W : Wts.Idx → EReal) (b : Fin 32) (s : Fin 1024) (e : Fin 512) : EReal :=
  ∑ c : Fin 512, xs (ix3 b s c) * W (ix2 e c)

/-- The scaled score of row `s` against row `t`. -/
def score (xs : Acts.Idx → EReal) (Wq Wk : Wts.Idx → EReal) (b : Fin 32) (s t : Fin 1024) : EReal :=
  (∑ e : Fin 512, proj xs Wq b s e * proj xs Wk b t e) * scale

/-- The maximum of a row of scores, taken from `floor`. -/
def rowMax (w : Fin 1024 → EReal) : EReal := (Finset.univ : Finset (Fin 1024)).fold max floor w

/-- The softmax weight of entry `t` in a row of scores: the exponential of the entry less the row's
    maximum, over the sum of those exponentials along the row. -/
def softRow (w : Fin 1024 → EReal) (t : Fin 1024) : EReal :=
  Ideal.div (Ideal.exp (w t - rowMax w)) (∑ u : Fin 1024, Ideal.exp (w u - rowMax w))

/-- Attention: at (b, s, d) the softmax-weighted sum over rows `t` of the projected value rows. -/
def attend (xs : Acts.Idx → EReal) (Wq Wk Wv : Wts.Idx → EReal) : Acts.Idx → EReal := fun i =>
  ∑ t : Fin 1024, softRow (fun u => score xs Wq Wk (i 0) (i 1) u) t * proj xs Wv (i 0) t (i 2)

end Cert.Attention

end
-- ==== Proof.RefSide.lean ====
/- The reference's value, read at an index: the projections, the scaled scores, the softmax row and the weighted sum of the value rows. -/
import proofs.«138082_j77309411328085_2_alg».proof.Defs
import proofs.«138082_j77309411328085_2_alg».proof.Proof.Gen.ReferenceIdeal.Run
import proofs.«138082_j77309411328085_2_alg».proof.Proof.Gen.ReferenceIdeal.Read
import proofs.«138082_j77309411328085_2_alg».proof.Proof.Spec
import Idealize.ShloMosaic.PureOps.Reduce

noncomputable section

/-! ## Laws of the specification's constants -/

namespace Cert.Attention

open Idealize.ShloMosaic

/-- The scale's pattern has sign 0, exponent 122 and fraction 3474675: it denotes the real
    (2^23 + 3474675) * 2^(122 - 127 - 23) = 11863283 / 2^28, which is finite and not negative. -/
theorem scale_real : ∃ r : ℝ, 0 ≤ r ∧ scale = (r : EReal) := by
  refine ⟨(11863283 : ℝ) / 268435456, by norm_num, ?_⟩
  unfold scale
  simp [Ideal.ofBits, Ideal.ieee, -EReal.coe_mul]; norm_num

/-- A finite factor that is not negative distributes over a finite sum on the extended reals. -/
theorem sum_mul_const {ι : Type} (s : Finset ι) (f : ι → EReal) (r : ℝ) (hr : 0 ≤ r) :
    ∑ e ∈ s, f e * (r : EReal) = (∑ e ∈ s, f e) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The scale may be taken out of an inner product: multiplication on the extended reals is commutative and
    associative, and the scale is a finite factor that is not negative. -/
theorem sum_mul_scale (a b : Fin 512 → EReal) :
    ∑ e, (a e * scale) * b e = (∑ e, a e * b e) * scale := by
  obtain ⟨r, hr, hs⟩ := scale_real
  rw [hs, ← sum_mul_const Finset.univ (fun e => a e * b e) r hr]
  exact Finset.sum_congr rfl fun e _ => mul_right_comm _ _ _

/-- A maximum folded from the start value is at least the start value. -/
theorem max_floor_fold (w : Fin 1024 → EReal) : max floor (rowMax w) = rowMax w :=
  max_eq_right ((Finset.le_fold_max _).2 (Or.inl le_rfl))

end Cert.Attention

/-! ## The reference, stage by stage, read at an index -/

namespace Cert.ReferenceIdeal.RefValue

open Cert.ReferenceIdeal Cert.ReferenceIdeal.Gen Cert.ReferenceIdeal.Read Cert.Attention
open Idealize.ShloMosaic Idealize.ShloMosaic.ValueIdx Idealize.ShloMosaic.TcCoe Idealize.SL.Sem Idealize.ShloMosaic.StableHlo

variable (x0 : (⟨S32x512x32x32, .f32⟩ : BufTy).Contents (Elt Ideal))
variable (x1 x2 x3 : (⟨S512x512, .f32⟩ : BufTy).Contents (Elt Ideal))

/-! ### The index maps of the contractions, the broadcasts and the row sum, at an index given by coordinates -/

theorem lidx1 (b : Fin 32) (s : Fin 1024) (e c : Fin 512) : lidx_main_v1 (ix3 b s e) c = ix3 b s c :=
  funext fun a => Fin.ext (by match a with | ⟨0, _⟩ => rfl | ⟨1, _⟩ => rfl | ⟨2, _⟩ => rfl)
theorem ridx1 (b : Fin 32) (s : Fin 1024) (e c : Fin 512) : ridx_main_v1 (ix3 b s e) c = ix2 e c :=
  funext fun a => Fin.ext (by match a with | ⟨0, _⟩ => rfl | ⟨1, _⟩ => rfl)
theorem lidx2 (b : Fin 32) (s : Fin 1024) (e c : Fin 512) : lidx_main_v2 (ix3 b s e) c = ix3 b s c :=
  funext fun a => Fin.ext (by match a with | ⟨0, _⟩ => rfl | ⟨1, _⟩ => rfl | ⟨2, _⟩ => rfl)
theorem ridx2 (b : Fin 32) (s : Fin 1024) (e c : Fin 512) : ridx_main_v2 (ix3 b s e) c = ix2 e c :=
  funext fun a => Fin.ext (by match a with | ⟨0, _⟩ => rfl | ⟨1, _⟩ => rfl)
theorem lidx3 (b : Fin 32) (s : Fin 1024) (e c : Fin 512) : lidx_main_v3 (ix3 b s e) c = ix3 b s c :=
  funext fun a => Fin.ext (by match a with | ⟨0, _⟩ => rfl | ⟨1, _⟩ => rfl | ⟨2, _⟩ => rfl)
theorem ridx3 (b : Fin 32) (s : Fin 1024) (e c : Fin 512) : ridx_main_v3 (ix3 b s e) c = ix2 e c :=
  funext fun a => Fin.ext (by match a with | ⟨0, _⟩ => rfl | ⟨1, _⟩ => rfl)
theorem lidx4 (b : Fin 32) (s t : Fin 1024) (e : Fin 512) : lidx_main_v4 (ix3 b s t) e = ix3 b s e :=
  funext fun a => Fin.ext (by match a with | ⟨0, _⟩ => rfl | ⟨1, _⟩ => rfl | ⟨2, _⟩ => rfl)
theorem ridx4 (b : Fin 32) (s t : Fin 1024) (e : Fin 512) : ridx_main_v4 (ix3 b s t) e = ix3 b t e :=
  funext fun a => Fin.ext (by match a with | ⟨0, _⟩ => rfl | ⟨1, _⟩ => rfl | ⟨2, _⟩ => rfl)
theorem idx11 (b : Fin 32) (s t : Fin 1024) : idx_main_v10 (idx_main_v11 (ix3 b s t)) = ix2 b s :=
  funext fun a => Fin.ext (by match a with | ⟨0, _⟩ => rfl | ⟨1, _⟩ => rfl)
theorem idx14 (b : Fin 32) (s u : Fin 1024) : idx_main_v14 (ix2 b s) u = ix3 b s u :=
  funext fun a => Fin.ext (by match a with | ⟨0, _⟩ => rfl | ⟨1, _⟩ => rfl | ⟨2, _⟩ => rfl)
theorem idx16 (b : Fin 32) (s t : Fin 1024) : idx_main_v15 (idx_main_v16 (ix3 b s t)) = ix2 b s :=
  funext fun a => Fin.ext (by match a with | ⟨0, _⟩ => rfl | ⟨1, _⟩ => rfl)
theorem lidx18 (b : Fin 32) (s : Fin 1024) (d : Fin 512) (t : Fin 1024) : lidx_main_v18 (ix3 b s d) t = ix3 b s t :=
  funext fun a => Fin.ext (by match a with | ⟨0, _⟩ => rfl | ⟨1, _⟩ => rfl | ⟨2, _⟩ => rfl)
theorem ridx18 (b : Fin 32) (s : Fin 1024) (d : Fin 512) (t : Fin 1024) : ridx_main_v18 (ix3 b s d) t = ix3 b t d :=
  funext fun a => Fin.ext (by match a with | ⟨0, _⟩ => rfl | ⟨1, _⟩ => rfl | ⟨2, _⟩ => rfl)

/-! ### The three projections -/

theorem projQ (b : Fin 32) (s : Fin 1024) (e : Fin 512) :
    val_main_v1 (F := Ideal) x0 x1 (ix3 b s e) = proj (val_main_v0 (F := Ideal) x0) x1 b s e := by
  rw [val_main_v1_apply]
  exact Finset.sum_congr rfl fun c _ => by rw [lidx1, ridx1]
theorem projK (b : Fin 32) (s : Fin 1024) (e : Fin 512) :
    val_main_v2 (F := Ideal) x0 x2 (ix3 b s e) = proj (val_main_v0 (F := Ideal) x0) x2 b s e := by
  rw [val_main_v2_apply]
  exact Finset.sum_congr rfl fun c _ => by rw [lidx2, ridx2]
theorem projV (b : Fin 32) (s : Fin 1024) (e : Fin 512) :
    val_main_v3 (F := Ideal) x0 x3 (ix3 b s e) = proj (val_main_v0 (F := Ideal) x0) x3 b s e := by
  rw [val_main_v3_apply]
  exact Finset.sum_congr rfl fun c _ => by rw [lidx3, ridx3]

/-! ### The scaled scores -/

theorem scores (b : Fin 32) (s t : Fin 1024) :
    val_main_v6 (F := Ideal) x0 x1 x2 (ix3 b s t) = score (val_main_v0 (F := Ideal) x0) x1 x2 b s t := by
  rw [val_main_v6_apply, val_main_v5_apply, val_main_cst_apply, val_main_v4_apply, Ideal.mulf_def, Ideal.ofBits_def]
  unfold score scale
  refine congrArg (· * Ideal.ofBits .f32 0x3D3504F3#32) (Finset.sum_congr rfl fun e _ => ?_)
  rw [lidx4, ridx4, projQ, projK]

/-! ### The row maximum -/

theorem reduces_d2 : S32x1024x1024.Reduces [2] S32x1024 := by decide

/-- The reduced index (b, s) with coordinate `k` put back on the last axis is (b, s, k). -/
theorem lift_d2 (h : S32x1024x1024.Reduces [2] S32x1024) (b : Fin 32) (s : Fin 1024) (k : Fin (S32x1024x1024.size 2)) :
    h.lift (ix2 b s) k = ix3 b s (⟨k.val, k.isLt⟩ : Fin 1024) := by
  funext c; apply Fin.ext
  match c with
  | ⟨0, _⟩ => rfl
  | ⟨1, _⟩ => rfl
  | ⟨2, _⟩ => rfl

/-- The maximum reduced along a row of scores is the fold of `max` from the start value over the row. -/
theorem hostMax_row (y : FVec Ideal S32x1024x1024 .f32) (b : Fin 32) (s : Fin 1024) :
    Host.reduce FloatOps.maximumf y (constant (F := Ideal) S_ .f32 0xFF800000#32) reducesTo_S32x1024x1024_S32x1024_d2 h_S_ (ix2 b s)
      = rowMax fun u => y (ix3 b s u) := by
  rw [Host.reduce_eq_fold_single FloatOps.maximumf y _ reducesTo_S32x1024x1024_S32x1024_d2 reduces_d2 h_S_]
  have hf : (y ∘ reduces_d2.lift (ix2 b s)) = fun k : Fin 1024 => y (ix3 b s k) :=
    funext fun k => congrArg y (lift_d2 reduces_d2 b s k)
  exact congrArg (fun f => Finset.fold max floor f (Finset.univ : Finset (Fin 1024))) hf

theorem rowMax7 (b : Fin 32) (s : Fin 1024) :
    val_main_v7 (F := Ideal) x0 x1 x2 (ix2 b s) = rowMax fun u => val_main_v6 (F := Ideal) x0 x1 x2 (ix3 b s u) := by
  unfold val_main_v7
  generalize val_main_v6 (F := Ideal) x0 x1 x2 = y
  exact hostMax_row y b s

/-- The reference takes the maximum with the start value once more; the fold already starts there. -/
theorem rowMax9 (b : Fin 32) (s : Fin 1024) :
    val_main_v9 (F := Ideal) x0 x1 x2 (ix2 b s)
      = rowMax fun u => score (val_main_v0 (F := Ideal) x0) x1 x2 b s u := by
  rw [val_main_v9_apply, val_main_v8_apply, val_main_cst_1_apply, rowMax7, Ideal.maximumf_def, Ideal.ofBits_def]
  simp only [scores]
  exact max_floor_fold _

/-! ### The softmax row -/

theorem expRow (b : Fin 32) (s t : Fin 1024) :
    val_main_v13 (F := Ideal) x0 x1 x2 (ix3 b s t)
      = Ideal.exp (score (val_main_v0 (F := Ideal) x0) x1 x2 b s t
          - rowMax fun u => score (val_main_v0 (F := Ideal) x0) x1 x2 b s u) := by
  rw [val_main_v13_apply, val_main_v12_apply, val_main_v11_apply, val_main_v10_apply, idx11, rowMax9, scores,
    Ideal.hostUnary_exp_def, Ideal.subf_def]

theorem sumRow (b : Fin 32) (s : Fin 1024) :
    val_main_v14 (F := Ideal) x0 x1 x2 (ix2 b s)
      = ∑ t : Fin 1024, Ideal.exp (score (val_main_v0 (F := Ideal) x0) x1 x2 b s t
          - rowMax fun u => score (val_main_v0 (F := Ideal) x0) x1 x2 b s u) := by
  rw [val_main_v14_apply, val_main_cst_2_apply, Ideal.ofBits_def, Ideal.ofBits_zero_f32, zero_add]
  exact Finset.sum_congr rfl fun u _ => by rw [idx14, expRow]

theorem softmaxRow (b : Fin 32) (s t : Fin 1024) :
    val_main_v17 (F := Ideal) x0 x1 x2 (ix3 b s t)
      = softRow (fun u => score (val_main_v0 (F := Ideal) x0) x1 x2 b s u) t := by
  rw [val_main_v17_apply, val_main_v16_apply, val_main_v15_apply, idx16, sumRow, expRow, Ideal.hostDivf_def]
  rfl

/-! ### The weighted sum of the value rows -/

/-- The reference before its final reshape is the specification's attention of the reshaped activations. -/
theorem ref_attend :
    val_main_v18 (F := Ideal) x0 x1 x2 x3 = attend (val_main_v0 (F := Ideal) x0) x1 x2 x3 := by
  funext i
  obtain ⟨b, s, d, rfl⟩ : ∃ (b : Fin 32) (s : Fin 1024) (d : Fin 512), i = ix3 b s d := ⟨i 0, i 1, i 2, eq_ix3 i⟩
  rw [val_main_v18_apply]
  show _ = ∑ t : Fin 1024, softRow (fun u => score (val_main_v0 (F := Ideal) x0) x1 x2 b s u) t
      * proj (val_main_v0 (F := Ideal) x0) x3 b t d
  exact Finset.sum_congr rfl fun t _ => by rw [lidx18, ridx18, softmaxRow, projV]

end Cert.ReferenceIdeal.RefValue

end
-- ==== Proof.Payload.lean ====
/- The kernel body's arithmetic, read at an index on the extended reals.
   The body first multiplies the 1024 rows of one sequence by the three projection matrices stacked
   into one 1536 x 512 matrix, so entry (s, e) of the product is the inner product of row s with
   stacked row e; the three stored blocks are the column ranges [0, 512), [512, 1024), [1024, 1536) of
   that product, the first one times the score scale. Then, for 256 query rows at a time, it takes the
   inner products with all 1024 key rows, the softmax of each row of them against the row's maximum,
   and the weighted sum of the value rows. -/
import proofs.«138082_j77309411328085_2_alg».proof.Proof.Gen.KernelIdeal.Skeleton
import proofs.«138082_j77309411328085_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The stacked projection: rows times stacked matrix rows -/

/- The stacked product's dimension numbers contract axis 1 of both operands: at output entry (s, e)
   and contraction position k the left operand is read at (s, k) and the right at (e, k). -/

theorem dotP_lhs_non (i : S1024x1536.Idx) (q : dot_S1024x512_S1536x512_S1024x1536_1_1_0_0_n_n.contr.Idx) : (dot_S1024x512_S1536x512_S1024x1536_1_1_0_0_n_n.lhsIdx i q 0).val = (i 0).val := by
  unfold DotDims.lhsIdx
  rw [dif_neg (show ¬(0 : Fin S1024x512.rank) ∈ dot_S1024x512_S1536x512_S1024x1536_1_1_0_0_n_n.lhsBatch by decide),
    dif_pos (show (0 : Fin S1024x512.rank) ∈ dot_S1024x512_S1536x512_S1024x1536_1_1_0_0_n_n.lhsNonContracting by decide)]
  rfl
theorem dotP_lhs_con (i : S1024x1536.Idx) (q : dot_S1024x512_S1536x512_S1024x1536_1_1_0_0_n_n.contr.Idx) : (dot_S1024x512_S1536x512_S1024x1536_1_1_0_0_n_n.lhsIdx i q 1).val = (q ⟨0, by decide⟩).val :=
  dot_S1024x512_S1536x512_S1024x1536_1_1_0_0_n_n.lhsIdx_val_of_single rfl i q
theorem dotP_rhs_non (i : S1024x1536.Idx) (q : dot_S1024x512_S1536x512_S1024x1536_1_1_0_0_n_n.contr.Idx) : (dot_S1024x512_S1536x512_S1024x1536_1_1_0_0_n_n.rhsIdx i q 0).val = (i 1).val := by
  unfold DotDims.rhsIdx
  rw [dif_neg (show ¬(0 : Fin S1536x512.rank) ∈ dot_S1024x512_S1536x512_S1024x1536_1_1_0_0_n_n.rhsBatch by decide),
    dif_pos (show (0 : Fin S1536x512.rank) ∈ dot_S1024x512_S1536x512_S1024x1536_1_1_0_0_n_n.rhsNonContracting by decide)]
  rfl
theorem dotP_rhs_con (i : S1024x1536.Idx) (q : dot_S1024x512_S1536x512_S1024x1536_1_1_0_0_n_n.contr.Idx) : (dot_S1024x512_S1536x512_S1024x1536_1_1_0_0_n_n.rhsIdx i q 1).val = (q ⟨0, by decide⟩).val :=
  dot_S1024x512_S1536x512_S1024x1536_1_1_0_0_n_n.rhsIdx_val_of_single rfl i q

theorem dotP_lhs (s : Fin 1024) (e : Fin 1536) (k : Fin 512) :
    dot_S1024x512_S1536x512_S1024x1536_1_1_0_0_n_n.lhsIdx (ix2 s e) ((contrEquiv1 dot_S1024x512_S1536x512_S1024x1536_1_1_0_0_n_n 512 rfl rfl).symm k) = ix2 s k := by
  have hk := contrEquiv1_symm_val dot_S1024x512_S1536x512_S1024x1536_1_1_0_0_n_n 512 rfl rfl k
  refine funext fun a => Fin.ext ?_
  match a with
  | ⟨0, _⟩ => exact dotP_lhs_non _ _
  | ⟨1, _⟩ => exact (dotP_lhs_con _ _).trans hk

theorem dotP_rhs (s : Fin 1024) (e : Fin 1536) (k : Fin 512) :
    dot_S1024x512_S1536x512_S1024x1536_1_1_0_0_n_n.rhsIdx (ix2 s e) ((contrEquiv1 dot_S1024x512_S1536x512_S1024x1536_1_1_0_0_n_n 512 rfl rfl).symm k) = ix2 e k := by
  have hk := contrEquiv1_symm_val dot_S1024x512_S1536x512_S1024x1536_1_1_0_0_n_n 512 rfl rfl k
  refine funext fun a => Fin.ext ?_
  match a with
  | ⟨0, _⟩ => exact dotP_rhs_non _ _
  | ⟨1, _⟩ => exact (dotP_rhs_con _ _).trans hk

/-- Entry (s, e) of the stacked product is the inner product of row s with stacked matrix row e. -/
theorem pay1_apply (v0 : Vec Ideal S1x1024x512 .f32) (v3 : Vec Ideal S1536x512 .bf16) (s : Fin 1024) (e : Fin 1536) :
    k0_pay1 (F := Ideal) v0 v3 (ix2 s e) = ∑ c : Fin 512, v0 (ix3 0 s c) * v3 (ix2 e c) := by
  unfold k0_pay1
  refine (Ideal.matmul_constant_zero_apply dot_S1024x512_S1536x512_S1024x1536_1_1_0_0_n_n none _ _ (ix2 s e)).trans ?_
  rw [← Equiv.sum_comp (contrEquiv1 dot_S1024x512_S1536x512_S1024x1536_1_1_0_0_n_n 512 rfl rfl).symm]
  refine Finset.sum_congr rfl fun k _ => ?_
  rw [dotP_lhs, dotP_rhs, truncf_apply, shapeCast_self]
  exact congrArg (· * v3 (ix2 e k)) (shapeCast_1ab_ab_apply v0 shapeCasts_S1x1024x512_S1024x512 s k)

/-! ## The three stored blocks: column ranges of the stacked product -/

/-- The query block: columns [0, 512) of the stacked product, times the score scale. -/
theorem pay2_apply (v0 : Vec Ideal S1x1024x512 .f32) (v3 : Vec Ideal S1536x512 .bf16) (s : Fin 1024) (d : Fin 512) :
    k0_pay2 (F := Ideal) v0 v3 (ix2 s d)
      = k0_pay1 (F := Ideal) v0 v3 (ix2 s ⟨d.val, by omega⟩) * Cert.Attention.scale := by
  unfold k0_pay2
  rw [shapeCast_self, truncf_apply, mulf_apply, broadcast_apply]
  refine congrArg₂ (· * ·) ?_ rfl
  exact extractStridedSlice_apply _ _ slices_S1024x1536_o0_0_S1024x512 (ix2 s d) (ix2 s ⟨d.val, by omega⟩)
    (fun a => match a with
      | ⟨0, _⟩ => by show s.val = 0 + s.val; omega
      | ⟨1, _⟩ => by show d.val = 0 + d.val; omega)

/-- The key block: columns [512, 1024) of the stacked product. -/
theorem pay3_apply (v0 : Vec Ideal S1x1024x512 .f32) (v3 : Vec Ideal S1536x512 .bf16) (s : Fin 1024) (d : Fin 512) :
    k0_pay3 (F := Ideal) v0 v3 (ix2 s d) = k0_pay1 (F := Ideal) v0 v3 (ix2 s ⟨512 + d.val, by omega⟩) := by
  unfold k0_pay3
  rw [shapeCast_self, truncf_apply]
  exact extractStridedSlice_apply _ _ slices_S1024x1536_o0_512_S1024x512 (ix2 s d) (ix2 s ⟨512 + d.val, by omega⟩)
    (fun a => match a with
      | ⟨0, _⟩ => by show s.val = 0 + s.val; omega
      | ⟨1, _⟩ => by show 512 + d.val = 512 + d.val; rfl)

/-- The value block: columns [1024, 1536) of the stacked product. -/
theorem pay4_apply (v0 : Vec Ideal S1x1024x512 .f32) (v3 : Vec Ideal S1536x512 .bf16) (s : Fin 1024) (d : Fin 512) :
    k0_pay4 (F := Ideal) v0 v3 (ix2 s d) = k0_pay1 (F := Ideal) v0 v3 (ix2 s ⟨1024 + d.val, by omega⟩) := by
  unfold k0_pay4
  rw [shapeCast_self, truncf_apply]
  exact extractStridedSlice_apply _ _ slices_S1024x1536_o0_1024_S1024x512 (ix2 s d) (ix2 s ⟨1024 + d.val, by omega⟩)
    (fun a => match a with
      | ⟨0, _⟩ => by show s.val = 0 + s.val; omega
      | ⟨1, _⟩ => by show 1024 + d.val = 1024 + d.val; rfl)

/-! ## The attention block: 256 query rows against all 1024 key rows

The score product contracts axis 1 of both operands (query row r with key row t); the output product
contracts axis 1 of the weights with axis 0 of the value rows. -/

theorem dotS_lhs_non (i : S256x1024.Idx) (q : dot_S256x512_S1024x512_S256x1024_1_1_0_0_n_n.contr.Idx) : (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide),
    dif_pos (show (0 : Fin S256x512.rank) ∈ dot_S256x512_S1024x512_S256x1024_1_1_0_0_n_n.lhsNonContracting by decide)]
  rfl
theorem dotS_lhs_con (i : S256x1024.Idx) (q : dot_S256x512_S1024x512_S256x1024_1_1_0_0_n_n.contr.Idx) : (dot_S256x512_S1024x512_S256x1024_1_1_0_0_n_n.lhsIdx i q 1).val = (q ⟨0, by decide⟩).val :=
  dot_S256x512_S1024x512_S256x1024_1_1_0_0_n_n.lhsIdx_val_of_single rfl i q
theorem dotS_rhs_non (i : S256x1024.Idx) (q : dot_S256x512_S1024x512_S256x1024_1_1_0_0_n_n.contr.Idx) : (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide),
    dif_pos (show (0 : Fin S1024x512.rank) ∈ dot_S256x512_S1024x512_S256x1024_1_1_0_0_n_n.rhsNonContracting by decide)]
  rfl
theorem dotS_rhs_con (i : S256x1024.Idx) (q : dot_S256x512_S1024x512_S256x1024_1_1_0_0_n_n.contr.Idx) : (dot_S256x512_S1024x512_S256x1024_1_1_0_0_n_n.rhsIdx i q 1).val = (q ⟨0, by decide⟩).val :=
  dot_S256x512_S1024x512_S256x1024_1_1_0_0_n_n.rhsIdx_val_of_single rfl i q

theorem dotS_lhs (r : Fin 256) (t : Fin 1024) (c : Fin 512) :
    dot_S256x512_S1024x512_S256x1024_1_1_0_0_n_n.lhsIdx (ix2 r t) ((contrEquiv1 dot_S256x512_S1024x512_S256x1024_1_1_0_0_n_n 512 rfl rfl).symm c) = ix2 r c := by
  have hk := contrEquiv1_symm_val dot_S256x512_S1024x512_S256x1024_1_1_0_0_n_n 512 rfl rfl c
  refine funext fun a => Fin.ext ?_
  match a with
  | ⟨0, _⟩ => exact dotS_lhs_non _ _
  | ⟨1, _⟩ => exact (dotS_lhs_con _ _).trans hk

theorem dotS_rhs (r : Fin 256) (t : Fin 1024) (c : Fin 512) :
    dot_S256x512_S1024x512_S256x1024_1_1_0_0_n_n.rhsIdx (ix2 r t) ((contrEquiv1 dot_S256x512_S1024x512_S256x1024_1_1_0_0_n_n 512 rfl rfl).symm c) = ix2 t c := by
  have hk := contrEquiv1_symm_val dot_S256x512_S1024x512_S256x1024_1_1_0_0_n_n 512 rfl rfl c
  refine funext fun a => Fin.ext ?_
  match a with
  | ⟨0, _⟩ => exact dotS_rhs_non _ _
  | ⟨1, _⟩ => exact (dotS_rhs_con _ _).trans hk

theorem dotO_lhs_non (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide),
    dif_pos (show (0 : Fin S256x1024.rank) ∈ dot_S256x1024_S1024x512_S256x512_1_0_0_1_n_n.lhsNonContracting by decide)]
  rfl
theorem dotO_lhs_con (i : S256x512.Idx) (q : dot_S256x1024_S1024x512_S256x512_1_0_0_1_n_n.contr.Idx) : (dot_S256x1024_S1024x512_S256x512_1_0_0_1_n_n.lhsIdx i q 1).val = (q ⟨0, by decide⟩).val :=
  dot_S256x1024_S1024x512_S256x512_1_0_0_1_n_n.lhsIdx_val_of_single rfl i q
theorem dotO_rhs_non (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide),
    dif_pos (show (1 : Fin S1024x512.rank) ∈ dot_S256x1024_S1024x512_S256x512_1_0_0_1_n_n.rhsNonContracting by decide)]
  rfl
theorem dotO_rhs_con (i : S256x512.Idx) (q : dot_S256x1024_S1024x512_S256x512_1_0_0_1_n_n.contr.Idx) : (dot_S256x1024_S1024x512_S256x512_1_0_0_1_n_n.rhsIdx i q 0).val = (q ⟨0, by decide⟩).val :=
  dot_S256x1024_S1024x512_S256x512_1_0_0_1_n_n.rhsIdx_val_of_single rfl i q

theorem dotO_lhs (r : Fin 256) (d : Fin 512) (t : Fin 1024) :
    dot_S256x1024_S1024x512_S256x512_1_0_0_1_n_n.lhsIdx (ix2 r d) ((contrEquiv1 dot_S256x1024_S1024x512_S256x512_1_0_0_1_n_n 1024 rfl rfl).symm t) = ix2 r t := by
  have hk := contrEquiv1_symm_val dot_S256x1024_S1024x512_S256x512_1_0_0_1_n_n 1024 rfl rfl t
  refine funext fun a => Fin.ext ?_
  match a with
  | ⟨0, _⟩ => exact dotO_lhs_non _ _
  | ⟨1, _⟩ => exact (dotO_lhs_con _ _).trans hk

theorem dotO_rhs (r : Fin 256) (d : Fin 512) (t : Fin 1024) :
    dot_S256x1024_S1024x512_S256x512_1_0_0_1_n_n.rhsIdx (ix2 r d) ((contrEquiv1 dot_S256x1024_S1024x512_S256x512_1_0_0_1_n_n 1024 rfl rfl).symm t) = ix2 t d := by
  have hk := contrEquiv1_symm_val dot_S256x1024_S1024x512_S256x512_1_0_0_1_n_n 1024 rfl rfl t
  refine funext fun a => Fin.ext ?_
  match a with
  | ⟨0, _⟩ => exact (dotO_rhs_con _ _).trans hk
  | ⟨1, _⟩ => exact dotO_rhs_non _ _

/-- The scores: entry (r, t) is the inner product of query row r with key row t. -/
def scoresV (q : FVec Ideal S256x512 .bf16) (k : FVec Ideal S1024x512 .bf16) : FVec Ideal S256x1024 .f32 :=
  matmul dot_S256x512_S1024x512_S256x1024_1_1_0_0_n_n none q k (constant (F := Ideal) S256x1024 .f32 0x00000000#32)

theorem scoresV_apply (q : FVec Ideal S256x512 .bf16) (k : FVec Ideal S1024x512 .bf16) (r : Fin 256) (t : Fin 1024) :
    scoresV q k (ix2 r t) = ∑ e : Fin 512, q (ix2 r e) * k (ix2 t e) := by
  unfold scoresV
  refine (Ideal.matmul_constant_zero_apply dot_S256x512_S1024x512_S256x1024_1_1_0_0_n_n none q k (ix2 r t)).trans ?_
  rw [← Equiv.sum_comp (contrEquiv1 dot_S256x512_S1024x512_S256x1024_1_1_0_0_n_n 512 rfl rfl).symm]
  refine Finset.sum_congr rfl fun c _ => ?_
  rw [dotS_lhs, dotS_rhs]

/-- Row r of a 256 x 1024 array with column t put back is entry (r, t). -/
theorem lift_row (r : Fin 256) (t : Fin 1024) : reduces_S256x1024_S256.lift (ix1 r) t = ix2 r t := by
  funext c; apply Fin.ext
  match c with
  | ⟨0, _⟩ => rfl
  | ⟨1, _⟩ => rfl

/-- The vector of row maxima, each taken from minus infinity as spelt. -/
def rowMaxV (x : FVec Ideal S256x1024 .f32) : FVec Ideal S256 .f32 :=
  multiReduction (F := Ideal) .maximumf [1] S256 x 0xFF800000#32 reduces_S256x1024_S256 (.inl rfl) rfl

theorem rowMaxV_apply (x : FVec Ideal S256x1024 .f32) (r : Fin 256) :
    rowMaxV x (ix1 r) = Cert.Attention.rowMax (fun t => x (ix2 r t)) := by
  unfold rowMaxV
  refine (Ideal.multiReduction_maximumf_single x 0xFF800000#32 reduces_S256x1024_S256 (.inl rfl) rfl (ix1 r)).trans ?_
  have hf : (x ∘ reduces_S256x1024_S256.lift (ix1 r)) = fun t : Fin 1024 => x (ix2 r t) :=
    funext fun t => congrArg x (lift_row r t)
  unfold Cert.Attention.rowMax Cert.Attention.floor
  exact congrArg (fun f => Finset.fold max (Ideal.ofBits .f32 0xFF800000#32) f (Finset.univ : Finset (Fin 1024))) hf

/-- The vector of row sums. -/
def rowSumV (x : FVec Ideal S256x1024 .f32) : FVec Ideal S256 .f32 :=
  multiReduction (F := Ideal) .add [1] S256 x 0x00000000#32 reduces_S256x1024_S256 (.inl rfl) rfl

theorem rowSumV_apply (x : FVec Ideal S256x1024 .f32) (r : Fin 256) :
    rowSumV x (ix1 r) = ∑ t : Fin 1024, x (ix2 r t) := by
  unfold rowSumV
  refine (Ideal.multiReduction_add_single x 0x00000000#32 reduces_S256x1024_S256 (.inl rfl) rfl (ix1 r)).trans ?_
  exact Finset.sum_congr rfl fun t _ => congrArg x (lift_row r t)

/-- A length-256 vector as a column, spread over 1024 columns: entry (r, t) is entry r. -/
def spread {α : Type} (y : S256.Idx → α) : S256x1024.Idx → α :=
  broadcastTo S256x1024 (shapeCast S256x1 y shapeCasts_S256_S256x1) broadcasts_S256x1_S256x1024

theorem spread_apply {α : Type} (y : S256.Idx → α) (r : Fin 256) (t : Fin 1024) : spread y (ix2 r t) = y (ix1 r) := by
  unfold spread
  refine (broadcastTo_apply _ broadcasts_S256x1_S256x1024 (ix2 r t) (ix2 r (0 : Fin 1)) (fun a => ?_)).trans ?_
  · match a with
    | ⟨0, _⟩ => rfl
    | ⟨1, _⟩ => rfl
  · exact shapeCast_apply y shapeCasts_S256_S256x1 (ix2 r (0 : Fin 1)) (ix1 r) (by
      rw [Shape.rowMajor_val_one, Shape.rowMajor_val_two]
      show r.val = r.val * 1 + 0
      omega)

/-- The exponentials of the entries less their row's maximum. -/
def expoV (x : FVec Ideal S256x1024 .f32) : FVec Ideal S256x1024 .f32 := exp (subf x (spread (rowMaxV x)))

theorem expoV_apply (x : FVec Ideal S256x1024 .f32) (r : Fin 256) (t : Fin 1024) :
    expoV x (ix2 r t) = Ideal.exp (x (ix2 r t) - Cert.Attention.rowMax (fun u => x (ix2 r u))) := by
  unfold expoV
  show Ideal.exp (subf x (spread (rowMaxV x)) (ix2 r t)) = _
  rw [subf_apply, spread_apply, rowMaxV_apply]

/-- The softmax weights: each exponential over its row's sum of exponentials. -/
def softV (x : FVec Ideal S256x1024 .f32) : FVec Ideal S256x1024 .f32 := divf (expoV x) (spread (rowSumV (expoV x)))

theorem softV_apply (x : FVec Ideal S256x1024 .f32) (r : Fin 256) (t : Fin 1024) :
    softV x (ix2 r t) = Cert.Attention.softRow (fun u => x (ix2 r u)) t := by
  unfold softV Cert.Attention.softRow
  rw [divf_apply, spread_apply, rowSumV_apply, expoV_apply]
  exact congrArg (Ideal.div _) (Finset.sum_congr rfl fun u _ => expoV_apply x r u)

/-- The block's arithmetic is the output product of the softmax weights of the scores with the value rows. -/
theorem pay5_eq (q : Vec Ideal S256x512 .bf16) (k v : Vec Ideal S1024x512 .bf16) :
    k0_pay5 (F := Ideal) q k v
      = shapeCast S1x256x512
          (matmul (φ₁ := .bf16) (φ₂ := .bf16) dot_S256x1024_S1024x512_S256x512_1_0_0_1_n_n none (truncf .bf16 (softV (scoresV q k)) bitsLt_bf16_f32) v
            (constant (F := Ideal) S256x512 .f32 0x00000000#32))
          shapeCasts_S256x512_S1x256x512 := rfl

/-- Entry (r, d) of the block: the softmax-weighted sum over key rows t of the value rows at d. -/
theorem pay5_apply (q : Vec Ideal S256x512 .bf16) (k v : Vec Ideal S1024x512 .bf16) (r : Fin 256) (d : Fin 512) :
    k0_pay5 (F := Ideal) q k v (ix3 0 r d)
      = ∑ t : Fin 1024, Cert.Attention.softRow (fun u => ∑ e : Fin 512, q (ix2 r e) * k (ix2 u e)) t * v (ix2 t d) := by
  rw [pay5_eq]
  refine (shapeCast_ab_1ab_apply _ shapeCasts_S256x512_S1x256x512 0 r d).trans ?_
  refine (Ideal.matmul_constant_zero_apply (φ₁ := .bf16) (φ₂ := .bf16) dot_S256x1024_S1024x512_S256x512_1_0_0_1_n_n none _ v (ix2 r d)).trans ?_
  rw [← Equiv.sum_comp (contrEquiv1 dot_S256x1024_S1024x512_S256x512_1_0_0_1_n_n 1024 rfl rfl).symm]
  refine Finset.sum_congr rfl fun t _ => ?_
  rw [dotO_lhs, dotO_rhs, truncf_apply, softV_apply]
  exact congrArg (fun w => Cert.Attention.softRow w t * v (ix2 t d)) (funext fun u => scoresV_apply q k r u)

end Cert.KernelIdeal.Payload

end
-- ==== Proof.BlockValue.lean ====
/- The kernel's inputs and its body's result against the specification: the three projection matrices stacked
   into one, read at an index; and the rows the body computes for one block of 256 query rows, which are the
   specification's attention at those rows. -/
import proofs.«138082_j77309411328085_2_alg».proof.Proof.Gen.KernelIdeal.Skeleton
import proofs.«138082_j77309411328085_2_alg».proof.Proof.RefSide
import proofs.«138082_j77309411328085_2_alg».proof.Proof.Payload
import Idealize.ShloMosaic.Lib.ValueIdx
import Idealize.ShloMosaic.Lib.Pipeline.Value

noncomputable section

namespace Cert.KernelIdeal.BlockValue

open Idealize.ShloMosaic Idealize.ShloMosaic.ValueIdx Cert.KernelIdeal Cert.KernelIdeal.Gen

/-! ## The stacked matrices -/

/-- The three 512 x 512 matrices laid one under the other along the rows, then narrowed (on the extended reals the
    narrowing changes nothing). -/
def stacked (a1 a2 a3 : FVec Ideal S512x512 .f32) : FVec Ideal S1536x512 .bf16 :=
  truncf .bf16 (concatenate S1536x512 0 [⟨S512x512, a1⟩, ⟨S512x512, a2⟩, ⟨S512x512, a3⟩]
    Facts₀.concatenates_S512x512_S512x512_S512x512_S1536x512_d0) Facts₀.bitsLt_bf16_f32

/-- Rows 0 to 511 of the stack are the first matrix. -/
theorem stacked_first (a1 a2 a3 : FVec Ideal S512x512 .f32) (e c : Fin 512) :
    stacked a1 a2 a3 (ix2 (⟨e.val, by omega⟩ : Fin 1536) c) = a1 (ix2 e c) := by
  unfold stacked truncf
  rw [Ideal.truncf_def]
  refine concatenate_apply_piece (α := Ideal .f32) (0 : Fin S1536x512.rank) [⟨S512x512, a1⟩, ⟨S512x512, a2⟩, ⟨S512x512, a3⟩] _ _ 0 (show 0 < 3 by omega) S512x512 a1 rfl rfl 0 rfl (ix2 e c)
    (fun b hb => ?_) ?_
  · match b with
    | ⟨0, _⟩ => exact absurd rfl hb
    | ⟨1, _⟩ => rfl
  · show 0 + e.val = e.val
    omega

/-- Rows 512 to 1023 of the stack are the second matrix. -/
theorem stacked_second (a1 a2 a3 : FVec Ideal S512x512 .f32) (e c : Fin 512) :
    stacked a1 a2 a3 (ix2 (⟨512 + e.val, by omega⟩ : Fin 1536) c) = a2 (ix2 e c) := by
  unfold stacked truncf
  rw [Ideal.truncf_def]
  refine concatenate_apply_piece (α := Ideal .f32) (0 : Fin S1536x512.rank) [⟨S512x512, a1⟩, ⟨S512x512, a2⟩, ⟨S512x512, a3⟩] _ _ 1 (show 1 < 3 by omega) S512x512 a2 rfl rfl 512 rfl (ix2 e c)
    (fun b hb => ?_) ?_
  · match b with
    | ⟨0, _⟩ => exact absurd rfl hb
    | ⟨1, _⟩ => rfl
  · show 512 + e.val = 512 + e.val
    rfl

/-- Rows 1024 to 1535 of the stack are the third matrix. -/
theorem stacked_third (a1 a2 a3 : FVec Ideal S512x512 .f32) (e c : Fin 512) :
    stacked a1 a2 a3 (ix2 (⟨1024 + e.val, by omega⟩ : Fin 1536) c) = a3 (ix2 e c) := by
  unfold stacked truncf
  rw [Ideal.truncf_def]
  refine concatenate_apply_piece (α := Ideal .f32) (0 : Fin S1536x512.rank) [⟨S512x512, a1⟩, ⟨S512x512, a2⟩, ⟨S512x512, a3⟩] _ _ 2 (show 2 < 3 by omega) S512x512 a3 rfl rfl 1024 rfl (ix2 e c)
    (fun b hb => ?_) ?_
  · match b with
    | ⟨0, _⟩ => exact absurd rfl hb
    | ⟨1, _⟩ => rfl
  · show 1024 + e.val = 1024 + e.val
    rfl

/-! ## The body's result rows -/

open Cert.Attention (proj score softRow attend scale sum_mul_scale)

/-- An entry of the stacked product, in a row of the stack that holds row `e` of the matrix `W`, is the
    projection by `W` at output channel `e`: the block holds the rows of sequence `b`. -/
theorem stackedProduct_proj (xs : Cert.Attention.Acts.Idx → EReal) (W : Cert.Attention.Wts.Idx → EReal) (b : Fin 32)
    (x0 : Vec Ideal S1x1024x512 .f32) (hx0 : ∀ (s : Fin 1024) (c : Fin 512), x0 (ix3 0 s c) = xs (ix3 b s c))
    (x1 : Vec Ideal S1536x512 .bf16) (e' : Fin 1536) (e : Fin 512) (hW : ∀ c : Fin 512, x1 (ix2 e' c) = W (ix2 e c))
    (s : Fin 1024) :
    k0_pay1 (F := Ideal) x0 x1 (ix2 s e') = proj xs W b s e := by
  rw [Payload.pay1_apply]
  unfold proj
  exact Finset.sum_congr rfl fun c _ => by rw [hx0, hW]

/-- For the block of 256 query rows number `j`, the body's result at row `r` of the block is the specification's
    attention at row 256 j + r of the sequence. The kernel scales the query projection before the inner product
    with the key projection; the specification scales the inner product: the scale comes out of the sum. -/
theorem body_attend (xs : Cert.Attention.Acts.Idx → EReal) (Wq Wk Wv : Cert.Attention.Wts.Idx → EReal) (b : Fin 32)
    (x0 : Vec Ideal S1x1024x512 .f32) (hx0 : ∀ (s : Fin 1024) (c : Fin 512), x0 (ix3 0 s c) = xs (ix3 b s c))
    (x1 : Vec Ideal S1536x512 .bf16)
    (hq : ∀ (e c : Fin 512), x1 (ix2 (⟨e.val, by omega⟩ : Fin 1536) c) = Wq (ix2 e c))
    (hk : ∀ (e c : Fin 512), x1 (ix2 (⟨512 + e.val, by omega⟩ : Fin 1536) c) = Wk (ix2 e c))
    (hv : ∀ (e c : Fin 512), x1 (ix2 (⟨1024 + e.val, by omega⟩ : Fin 1536) c) = Wv (ix2 e c))
    (j : Fin 4) (q : Vec Ideal S256x512 .bf16)
    (hqj : ∀ (r : Fin 256) (e : Fin 512),
      q (ix2 r e) = k0_pay2 (F := Ideal) x0 x1 (ix2 (⟨256 * j.val + r.val, by omega⟩ : Fin 1024) e))
    (r : Fin 256) (d : Fin 512) :
    k0_pay5 (F := Ideal) q (k0_pay3 (F := Ideal) x0 x1) (k0_pay4 (F := Ideal) x0 x1) (ix3 0 r d)
      = attend xs Wq Wk Wv (ix3 b (⟨256 * j.val + r.val, by omega⟩ : Fin 1024) d) := by
  have hK : ∀ (u : Fin 1024) (e : Fin 512), k0_pay3 (F := Ideal) x0 x1 (ix2 u e) = proj xs Wk b u e := fun u e => by
    rw [Payload.pay3_apply]
    exact stackedProduct_proj xs Wk b x0 hx0 x1 _ e (hk e) u
  have hV : ∀ (t : Fin 1024) (d : Fin 512), k0_pay4 (F := Ideal) x0 x1 (ix2 t d) = proj xs Wv b t d := fun t d => by
    rw [Payload.pay4_apply]
    exact stackedProduct_proj xs Wv b x0 hx0 x1 _ d (hv d) t
  have hQ : ∀ e : Fin 512, q (ix2 r e) = proj xs Wq b (⟨256 * j.val + r.val, by omega⟩ : Fin 1024) e * scale := fun e => by
    rw [hqj, Payload.pay2_apply]
    exact congrArg (· * scale) (stackedProduct_proj xs Wq b x0 hx0 x1 _ e (hq e) _)
  have hrow : (fun u : Fin 1024 => ∑ e : Fin 512, q (ix2 r e) * k0_pay3 (F := Ideal) x0 x1 (ix2 u e))
      = fun u => score xs Wq Wk b (⟨256 * j.val + r.val, by omega⟩ : Fin 1024) u := funext fun u => by
    unfold score
    rw [← sum_mul_scale]
    exact Finset.sum_congr rfl fun e _ => by rw [hQ, hK]
  rw [Payload.pay5_apply, hrow]
  show _ = ∑ t : Fin 1024, softRow (fun u => score xs Wq Wk b (⟨256 * j.val + r.val, by omega⟩ : Fin 1024) u) t
      * proj xs Wv b t d
  exact Finset.sum_congr rfl fun t _ => by rw [hV]

end Cert.KernelIdeal.BlockValue

end
-- ==== Proof.KernelIdealResult.lean ====
/- The idealized kernel's result, named. At the exact instance a grid point of the kernel takes sequence `b`'s
   1024 rows and the stack of the three projection matrices; it fills three scratch buffers with the scaled
   queries, the keys and the values of all rows, and then, 256 rows at a time, stores into the result's block the
   softmax-weighted sums of the value rows. Read back, each scratch buffer is its one whole store; each of the four
   stores into the result's block is, on its 256 rows, attention of the sequence (the scale moves from the queries
   to the scores because a finite nonnegative factor distributes over a sum); the four tile the block, the 32 blocks
   tile the array, and the host line after the region reshapes it. So @main ends with the reshape of attention of
   the reshaped activations by the three matrices. -/
import proofs.«138082_j77309411328085_2_alg».proof.Proof.KernelIdealFrame
import proofs.«138082_j77309411328085_2_alg».proof.Proof.KernelIdealArray
import proofs.«138082_j77309411328085_2_alg».proof.Proof.KernelIdealHostValue
import proofs.«138082_j77309411328085_2_alg».proof.Proof.KernelIdealBlocks
import proofs.«138082_j77309411328085_2_alg».proof.Proof.BlockValue

set_option maxRecDepth 16384

noncomputable section

namespace Cert.KernelIdeal.Result

open Cert.KernelIdeal Cert.KernelIdeal.Gen Cert.KernelIdeal.Region
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The scratch buffers read back -/

theorem zero2 : (![0, 0] : Fin 2 → Nat) = fun _ => 0 := funext fun a => by fin_cases a <;> rfl
theorem zero3 : (![0, 0, 0] : Fin 3 → Nat) = fun _ => 0 := funext fun a => by fin_cases a <;> rfl

section Body

variable (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec Ideal S1x1024x512 .f32) (x1 : Vec Ideal S1536x512 .bf16)

/-- The buffer of scaled queries, read back after its one whole store, is that store's value. -/
theorem queries_read : arg4.view.read (Elt Ideal) (arg4.view.writes (Elt Ideal) arg4.view.junk (bodyRun.sl.H4_1 c arg1 harg1 arg2 harg2 x0 x1)) = k0_pay2 (F := Ideal) x0 x1 := by
  rw [View.read_writes_junk_eq_canon]; unfold bodyRun.sl.H4_1
  rw [View.canon_unit_zero zero2]
  simp only [View.readAt_eq_ld, harg1.read_unread, harg2.read_unread, View.ld_unit_zero (S := S1x1024x512) zero3, View.ld_unit_zero (S := S1536x512) zero2]
/-- The buffer of keys likewise. -/
theorem keys_read : arg5.view.read (Elt Ideal) (arg5.view.writes (Elt Ideal) arg5.view.junk (bodyRun.sl.H5_1 c arg1 harg1 arg2 harg2 x0 x1)) = k0_pay3 (F := Ideal) x0 x1 := by
  rw [View.read_writes_junk_eq_canon]; unfold bodyRun.sl.H5_1
  rw [View.canon_unit_zero zero2]
  simp only [View.readAt_eq_ld, harg1.read_unread, harg2.read_unread, View.ld_unit_zero (S := S1x1024x512) zero3, View.ld_unit_zero (S := S1536x512) zero2]
/-- The buffer of values likewise. -/
theorem values_read : arg6.view.read (Elt Ideal) (arg6.view.writes (Elt Ideal) arg6.view.junk (bodyRun.sl.H6_1 c arg1 harg1 arg2 harg2 x0 x1)) = k0_pay4 (F := Ideal) x0 x1 := by
  rw [View.read_writes_junk_eq_canon]; unfold bodyRun.sl.H6_1
  rw [View.canon_unit_zero zero2]
  simp only [View.readAt_eq_ld, harg1.read_unread, harg2.read_unread, View.ld_unit_zero (S := S1x1024x512) zero3, View.ld_unit_zero (S := S1536x512) zero2]

/-! ## The loop's stores -/

/-- Trip `k` of the loop stores ONE piece: rows `256 k` to `256 k + 255` of the result's block, computed from the
    same rows of the query buffer and the whole key and value buffers. -/
theorem trip_piece (𝒱 : Variants) (bd : Option 𝒱.V) (X4 : BufTy.Contents (Elt Ideal) arg4.view.ty) (X5 : BufTy.Contents (Elt Ideal) arg5.view.ty) (X6 : BufTy.Contents (Elt Ideal) arg6.view.ty) (k : Fin k0_t1_loop.trips) :
    tripL_k0_t1 (F := Ideal) 𝒱 c bd i arg1 harg1 arg2 harg2 arg3 harg3 arg4 harg4 arg5 harg5 arg6 harg6 X4 X5 X6 k
      = [⟨Rect.unit (k0_off2 k) S1x256x512.size (k0_off2_inb k),
          k0_pay5 (View.readAt (Elt Ideal) arg4.view (Rect.unit (s := S1024x512) (k0_off1 k) S256x512.size (k0_off1_inb k)).toLoadRect X4)
            (View.readAt (Elt Ideal) arg5.view (Rect.unit (s := S1024x512) ![0, 0] S1024x512.size inb_S1024x512_S1024x512_0_0).toLoadRect X5)
            (View.readAt (Elt Ideal) arg6.view (Rect.unit (s := S1024x512) ![0, 0] S1024x512.size inb_S1024x512_S1024x512_0_0).toLoadRect X6)⟩] := by
  unfold tripL_k0_t1 trip_k0_t1
  rfl

/-- Every piece the trips before `n` stored is some trip's. -/
theorem mem_trips (𝒱 : Variants) (bd : Option 𝒱.V) (X4 : BufTy.Contents (Elt Ideal) arg4.view.ty) (X5 : BufTy.Contents (Elt Ideal) arg5.view.ty) (X6 : BufTy.Contents (Elt Ideal) arg6.view.ty) :
    ∀ (n : ℕ) (p : View.Piece (Elt Ideal) S1x1024x512 .f32), p ∈ pb_k0_t1 (F := Ideal) 𝒱 c bd i arg1 harg1 arg2 harg2 arg3 harg3 arg4 harg4 arg5 harg5 arg6 harg6 X4 X5 X6 n →
      ∃ k : Fin k0_t1_loop.trips, p ∈ tripL_k0_t1 (F := Ideal) 𝒱 c bd i arg1 harg1 arg2 harg2 arg3 harg3 arg4 harg4 arg5 harg5 arg6 harg6 X4 X5 X6 k
  | 0, p, h => by rw [pb_k0_t1.eq_1] at h; exact absurd h List.not_mem_nil
  | n + 1, p, h => by
    rw [pb_k0_t1.eq_2] at h; unfold pb_k0_t1Step at h
    split at h
    · rename_i hn
      rcases List.mem_append.mp h with h | h
      · exact ⟨⟨n, hn⟩, h⟩
      · exact mem_trips 𝒱 bd X4 X5 X6 n p h
    · exact mem_trips 𝒱 bd X4 X5 X6 n p h

end Body

/-! ## The result's block is attention of the sequence -/

section Block

variable (xs : Cert.Attention.Acts.Idx → EReal) (Wq Wk Wv : Cert.Attention.Wts.Idx → EReal) (b : Fin 32)
    (c : Dev nD) (i : grid0.Coords)
    (arg1 : Memref sig .tc .vmem S1x1024x512 .f32) (harg1 : arg1.IsWhole) (arg2 : Memref sig .tc .vmem S1536x512 .bf16) (harg2 : arg2.IsWhole)
    (arg3 : Memref sig .tc .vmem S1x1024x512 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec Ideal S1x1024x512 .f32) (hx0 : ∀ (s : Fin 1024) (k : Fin 512), x0 (ix3 0 s k) = xs (ix3 b s k))
    (x1 : Vec Ideal S1536x512 .bf16)
    (hq : ∀ (e k : Fin 512), x1 (ix2 (⟨e.val, by omega⟩ : Fin 1536) k) = Wq (ix2 e k))
    (hk : ∀ (e k : Fin 512), x1 (ix2 (⟨512 + e.val, by omega⟩ : Fin 1536) k) = Wk (ix2 e k))
    (hv : ∀ (e k : Fin 512), x1 (ix2 (⟨1024 + e.val, by omega⟩ : Fin 1536) k) = Wv (ix2 e k))

include hx0 hq hk hv in
/-- Every piece the body leaves in the result's block is, at each of its entries, attention of the sequence at the
    entry's row and channel. -/
theorem pieces_attend (p : View.Piece (Elt Ideal) S1x1024x512 .f32)
    (hp : p ∈ (bodyRun (F := Ideal) c i arg1 harg1 arg2 harg2 arg3 harg3 arg4 harg4 arg5 harg5 arg6 harg6 x0 x1).1) (x : p.1.shape.Idx) :
    p.2 x = Cert.Attention.attend xs Wq Wk Wv (ix3 b (p.1.emb x 1) (p.1.emb x 2)) := by
  unfold bodyRun at hp
  dsimp only at hp
  obtain ⟨k, hk'⟩ := mem_trips c i arg1 harg1 arg2 harg2 arg3 harg3 arg4 harg4 arg5 harg5 arg6 harg6 _ _ _ _ _ _ p hp
  rw [trip_piece, List.mem_singleton] at hk'
  subst hk'
  have hk4 : k.val < 4 := Nat.lt_of_lt_of_le k.isLt k0_t1_abs.2.1
  obtain ⟨r, d, rfl⟩ : ∃ (r : Fin 256) (d : Fin 512), x = ix3 (0 : Fin 1) r d :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  have e1 : ((Rect.unit (s := S1x1024x512) (k0_off2 k) S1x256x512.size (k0_off2_inb k)).emb (ix3 (0 : Fin 1) r d) 1) = (⟨256 * k.val + r.val, by omega⟩ : Fin 1024) := by
    apply Fin.ext; show (k0_off2 k) 1 + 1 * r.val = 256 * k.val + r.val; rw [k0_off2_eq k]; simp
  have e2 : ((Rect.unit (s := S1x1024x512) (k0_off2 k) S1x256x512.size (k0_off2_inb k)).emb (ix3 (0 : Fin 1) r d) 2) = d := by
    apply Fin.ext; show (k0_off2 k) 2 + 1 * d.val = d.val; rw [k0_off2_eq k]; simp
  show k0_pay5 (F := Ideal) _ _ _ (ix3 (0 : Fin 1) r d) = _
  rw [e1, e2]
  simp only [View.readAt_eq_ld, queries_read, keys_read, values_read, View.ld_unit_zero (S := S1024x512) zero2]
  refine Cert.KernelIdeal.BlockValue.body_attend xs Wq Wk Wv b x0 hx0 x1 hq hk hv ⟨k.val, hk4⟩ _ (fun r' e' => ?_) r d
  show k0_pay2 (F := Ideal) x0 x1 ((Rect.unit (s := S1024x512) (k0_off1 k) S256x512.size (k0_off1_inb k)).idx (ix2 r' e')) = _
  congr 1
  funext a; apply Fin.ext
  match a with
  | ⟨0, _⟩ => show (k0_off1 k) 0 + 1 * r'.val = 256 * k.val + r'.val; rw [k0_off1_eq k]; simp
  | ⟨1, _⟩ => show (k0_off1 k) 1 + 1 * e'.val = e'.val; rw [k0_off1_eq k]; simp

include hx0 hq hk hv in
/-- So the result's block after the body is attention of the sequence, row by row. -/
theorem outBlk_attend (s : Fin 1024) (d : Fin 512) :
    outBlk (F := Ideal) c i arg1 harg1 arg2 harg2 arg3 harg3 arg4 harg4 arg5 harg5 arg6 harg6 x0 x1 (ix3 (0 : Fin 1) s d) = Cert.Attention.attend xs Wq Wk Wv (ix3 b s d) := by
  unfold outBlk
  rw [View.read_writes_junk_eq_canon]
  exact View.canon_apply_of_pieces (fun y : S1x1024x512.Idx => Cert.Attention.attend xs Wq Wk Wv (ix3 b (y 1) (y 2))) _
    (fun p hp x => pieces_attend xs Wq Wk Wv b c i arg1 harg1 arg2 harg2 arg3 harg3 arg4 harg4 arg5 harg5 arg6 harg6 x0 hx0 x1 hq hk hv p hp x) (ix3 (0 : Fin 1) s d)
    (cover c i arg1 harg1 arg2 harg2 arg3 harg3 arg4 harg4 arg5 harg5 arg6 harg6 x0 x1 _)

end Block

/-! ## The array, and the run of @main -/

variable (m : (ℓ : Loc nD τ sig) → Buf (Elt Ideal) ℓ) (ρ : Dev nD → PrngReg)

/-- The function the result array ends at: attention of the reshaped activations by the three matrices. -/
def resultArray (c : Dev nD) : S32x1024x512.Idx → EReal :=
  Cert.Attention.attend (shapeCast S32x1024x512 (m ((c : Thread nD τ).loc main_arg0)) shapeCasts_S32x512x32x32_S32x1024x512)
    (m ((c : Thread nD τ).loc main_arg1)) (m ((c : Thread nD τ).loc main_arg2)) (m ((c : Thread nD τ).loc main_arg3))

/-- After the region the result array is `resultArray`: at every grid point the block written back is attention of
    the point's sequence, and the 32 blocks tile the array. -/
theorem final (c : Dev nD) : (dats m 0 c).arrAt 2 cfg0.N = resultArray m c :=
  Cert.KernelIdeal.Array.array_of_rows (dats m 0 c) (resultArray m c) fun t s d => by
    rw [after2]; unfold outAt resultArray
    refine outBlk_attend _ _ _ _ ⟨t.val, Cert.KernelIdeal.Array.point_lt t⟩ c _ _ _ _ _ _ _ _ _ _ _ _ _ (iblk m c 0 t) (fun s' k' => ?_) (iblk m c 1 t) (fun e k' => ?_) (fun e k' => ?_) (fun e k' => ?_) s d
    · rw [Cert.KernelIdeal.Blocks.acts_block m c t s' k', Cert.KernelIdeal.HostValue.V_acts m c]
    · rw [Cert.KernelIdeal.Blocks.stack_block m c t, Cert.KernelIdeal.HostValue.V_stack m c]; exact Cert.KernelIdeal.BlockValue.stacked_first _ _ _ e k'
    · rw [Cert.KernelIdeal.Blocks.stack_block m c t, Cert.KernelIdeal.HostValue.V_stack m c]; exact Cert.KernelIdeal.BlockValue.stacked_second _ _ _ e k'
    · rw [Cert.KernelIdeal.Blocks.stack_block m c t, Cert.KernelIdeal.HostValue.V_stack m c]; exact Cert.KernelIdeal.BlockValue.stacked_third _ _ _ e k'

/-- The run of @main with its result named: it ends with the reshape of `resultArray`, the four argument arrays as
    launched. -/
theorem run : θ_run defs (onTc (τ := τ) (main (F := Ideal))) ⟨m, fun _ => 0, ρ⟩ (fun r => ∀ c : Dev nD,
      r.2.mem ((c.tc : Thread nD τ).loc main_v4) = shapeCast S32x512x32x32 (resultArray m c) shapeCasts_S32x1024x512_S32x512x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans
        ((Cert.KernelIdeal.HostValue.tail_result m (dats m) c).trans (by rw [final m c])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Result

end
-- ==== Proof.lean ====
/- Single-head attention, a kernel against its plain reference, on the extended reals.
   Both programs take 32 x 512 x 32 x 32 activations, read as 32 sequences of 1024 rows of width 512, and three
   512 x 512 matrices. The reference projects every row by each matrix, scores row against row by the inner product
   of the query and key projections times a fixed scale, turns each row of scores into weights by the softmax taken
   against the row's maximum, and sums the value projections with those weights. The kernel stacks the three
   matrices and projects once, folds the scale into the queries, keeps queries, keys and values in scratch buffers,
   and computes scores, softmax and weighted sum 256 rows at a time, one sequence per grid point. With every
   operation exact and every change of format the identity, the two differ only in where the scale multiplies:
   the kernel's score is the sum over channels of (query x scale) x key, the reference's the sum of query x key,
   times the scale. Both spell the scale by the same bit pattern, a finite nonnegative number, and such a factor
   distributes over a finite sum of extended reals whatever the summands are; so the scores, and with them the
   maxima, the exponentials, the row sums, the weights and the results, agree entry by entry
   (`Cert.Attention.attend` is the common function; the finiteness of the inputs is never used).
   Each of the three programs runs to its end without a fault and leaves its four arguments as launched: for the
   two kernels by running the body once on arbitrary whole buffers (the counted loop by its invariant) and
   launching it at every grid point between the host lines around the region; for the reference, which has no
   kernel, by its run as a sequence of host operations. No operation of the kernel is rewritten for the exact
   reading, so there is nothing to preserve. -/
import proofs.«138082_j77309411328085_2_alg».proof.Defs
import proofs.«138082_j77309411328085_2_alg».proof.Proof.Gen.Kernel
import proofs.«138082_j77309411328085_2_alg».proof.Proof.Gen.KernelIdeal
import proofs.«138082_j77309411328085_2_alg».proof.Proof.Gen.ReferenceIdeal
import proofs.«138082_j77309411328085_2_alg».proof.Proof.Gen.Pre_finite_inputs
import proofs.«138082_j77309411328085_2_alg».proof.Proof.Gen.ReferenceIdeal.Run
import proofs.«138082_j77309411328085_2_alg».proof.Proof.Gen.ReferenceIdeal.Read
import proofs.«138082_j77309411328085_2_alg».proof.Proof.KernelFrame
import proofs.«138082_j77309411328085_2_alg».proof.Proof.KernelIdealResult
import proofs.«138082_j77309411328085_2_alg».proof.Proof.RefSide

noncomputable section

namespace Cert.Proof

open Idealize.ShloMosaic Idealize.SL.Sem

/-- The kernel as printed runs and leaves its arguments unchanged. -/
theorem frame_kernel : Cert.frame_Kernel := fun m ρ _ => Cert.Kernel.Region.frame m ρ

/-- So does the kernel read exactly. -/
theorem frame_kernelIdeal : Cert.frame_KernelIdeal := fun m ρ _ => Cert.KernelIdeal.Region.frame m ρ

/-- So does the reference: its run as a sequence of host operations, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten for the exact reading. -/
theorem preserves : Cert.preserves_Kernel_KernelIdeal := trivial

/-- From memories agreeing on the arguments the two programs end with the same result: the reshape of attention
    of the reshaped activations by the three matrices. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  unfold Cert.ReferenceIdeal.Read.val_main_v19
  rw [Cert.ReferenceIdeal.RefValue.ref_attend, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
